-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x1 : Shape := ⟨2, ![250000, 1]⟩
abbrev S2x5000000 : Shape := ⟨2, ![2, 5000000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S250000x1 : S_.BroadcastsInDim S250000x1 (![] : Fin 0 → Fin S250000x1.rank)
  reducesTo_S250000x1_S_d0_1 : S250000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S250000x1 .f32) (main_arg1 : IVec S2x5000000 32) (main_arg2 : FVec F S1x16 .f32) (main_arg3 : FVec F S16 .f32) (main_arg4 : FVec F S16x1 .f32) (main_arg5 : FVec F S1 .f32) : IVec S_ 1 :=
  let main_v0 : FVec F S250000x1 .f32 := Host.absf main_arg0
  let main_cst : FVec F S_ .f32 := constant S_ .f32 0x7F800000#32
  let main_v1 : FVec F S250000x1 .f32 := broadcastInDim S250000x1 ![] bcast_S_S250000x1 main_cst
  let main_v2 : IVec S250000x1 1 := cmpf .olt main_v0 main_v1
  let main_c : IVec S_ 1 := constantI S_ 1 1#1
  let main_v3 : IVec S_ 1 := (fun x v => Host.reduce IntOp.andi x v reducesTo_S250000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S250000x1 : Shape := ⟨2, ![250000, 1]⟩
abbrev S2x5000000 : Shape := ⟨2, ![2, 5000000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S250000 : Shape := ⟨1, ![250000]⟩
abbrev S1x5000000 : Shape := ⟨2, ![1, 5000000]⟩
abbrev S5000000 : Shape := ⟨1, ![5000000]⟩
abbrev S5250000 : Shape := ⟨1, ![5250000]⟩
abbrev S_ : Shape := ⟨0, ![]⟩
abbrev S5250000x1 : Shape := ⟨2, ![5250000, 1]⟩
abbrev S250000x16 : Shape := ⟨2, ![250000, 16]⟩
abbrev S5000x1 : Shape := ⟨2, ![5000, 1]⟩
abbrev S5000x16 : Shape := ⟨2, ![5000, 16]⟩
abbrev S5250000x16 : Shape := ⟨2, ![5250000, 16]⟩
abbrev S10000x16 : Shape := ⟨2, ![10000, 16]⟩
abbrev S10000x1 : Shape := ⟨2, ![10000, 1]⟩
abbrev S1x1 : Shape := ⟨2, ![1, 1]⟩

abbrev nBuf : Space → Nat
  | .hbm => 81
  | .vmem => 32
  | .smem => 0
  | _ => 0

abbrev bufTy : (tb : Table) → Fin (tcTables nBuf tb) → BufTy
  | .hbm, ⟨0, _⟩ => ⟨S250000x1, .f32⟩
  | .hbm, ⟨1, _⟩ => ⟨S2x5000000, .i32⟩
  | .hbm, ⟨2, _⟩ => ⟨S1x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S250000, .i32⟩
  | .hbm, ⟨7, _⟩ => ⟨S1x5000000, .i32⟩
  | .hbm, ⟨8, _⟩ => ⟨S5000000, .i32⟩
  | .hbm, ⟨9, _⟩ => ⟨S5250000, .i32⟩
  | .hbm, ⟨10, _⟩ => ⟨S1x5000000, .i32⟩
  | .hbm, ⟨11, _⟩ => ⟨S5000000, .i32⟩
  | .hbm, ⟨12, _⟩ => ⟨S5250000, .i32⟩
  | .hbm, ⟨13, _⟩ => ⟨S_, .f32⟩
  | .hbm, ⟨14, _⟩ => ⟨S5250000, .f32⟩
  | .hbm, ⟨15, _⟩ => ⟨S_, .f32⟩
  | .hbm, ⟨16, _⟩ => ⟨S250000, .f32⟩
  | .hbm, ⟨17, _⟩ => ⟨S5250000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .i1⟩
  | .hbm, ⟨22, _⟩ => ⟨S250000, .f32⟩
  | .hbm, ⟨23, _⟩ => ⟨S_, .f32⟩
  | .hbm, ⟨24, _⟩ => ⟨S_, .f32⟩
  | .hbm, ⟨25, _⟩ => ⟨S250000, .f32⟩
  | .hbm, ⟨26, _⟩ => ⟨S250000, .f32⟩
  | .hbm, ⟨27, _⟩ => ⟨S_, .i32⟩
  | .hbm, ⟨28, _⟩ => ⟨S5250000, .i32⟩
  | .hbm, ⟨29, _⟩ => ⟨S5250000, .i1⟩
  | .hbm, ⟨30, _⟩ => ⟨S_, .i32⟩
  | .hbm, ⟨31, _⟩ => ⟨S5250000, .i32⟩
  | .hbm, ⟨32, _⟩ => ⟨S5250000, .i32⟩
  | .hbm, ⟨33, _⟩ => ⟨S5250000, .i32⟩
  | .hbm, ⟨34, _⟩ => ⟨S5250000x1, .i32⟩
  | .hbm, ⟨35, _⟩ => ⟨S5250000, .f32⟩
  | .hbm, ⟨36, _⟩ => ⟨S_, .i32⟩
  | .hbm, ⟨37, _⟩ => ⟨S5250000, .i32⟩
  | .hbm, ⟨38, _⟩ => ⟨S5250000, .i1⟩
  | .hbm, ⟨39, _⟩ => ⟨S_, .i32⟩
  | .hbm, ⟨40, _⟩ => ⟨S5250000, .i32⟩
  | .hbm, ⟨41, _⟩ => ⟨S5250000, .i32⟩
  | .hbm, ⟨42, _⟩ => ⟨S5250000, .i32⟩
  | .hbm, ⟨43, _⟩ => ⟨S5250000x1, .i32⟩
  | .hbm, ⟨44, _⟩ => ⟨S5250000, .f32⟩
  | .hbm, ⟨45, _⟩ => ⟨S5250000, .f32⟩
  | .hbm, ⟨46, _⟩ => ⟨S5250000x1, .f32⟩
  | .hbm, ⟨47, _⟩ => ⟨S250000x16, .f32⟩
  | .hbm, ⟨48, _⟩ => ⟨S_, .i32⟩
  | .hbm, ⟨49, _⟩ => ⟨S5250000, .i32⟩
  | .hbm, ⟨50, _⟩ => ⟨S5250000, .i1⟩
  | .hbm, ⟨51, _⟩ => ⟨S_, .i32⟩
  | .hbm, ⟨52, _⟩ => ⟨S5250000, .i32⟩
  | .hbm, ⟨53, _⟩ => ⟨S5250000, .i32⟩
  | .hbm, ⟨54, _⟩ => ⟨S5250000, .i32⟩
  | .hbm, ⟨55, _⟩ => ⟨S5250000x1, .i32⟩
  | .hbm, ⟨56, _⟩ => ⟨S5250000x16, .f32⟩
  | .hbm, ⟨57, _⟩ => ⟨S5250000x16, .f32⟩
  | .hbm, ⟨58, _⟩ => ⟨S_, .f32⟩
  | .hbm, ⟨59, _⟩ => ⟨S250000x16, .f32⟩
  | .hbm, ⟨60, _⟩ => ⟨S5250000x1, .i32⟩
  | .hbm, ⟨61, _⟩ => ⟨S250000x16, .f32⟩
  | .hbm, ⟨62, _⟩ => ⟨S1x16, .f32⟩
  | .hbm, ⟨63, _⟩ => ⟨S250000x16, .f32⟩
  | .hbm, ⟨64, _⟩ => ⟨S250000x1, .f32⟩
  | .hbm, ⟨65, _⟩ => ⟨S_, .i32⟩
  | .hbm, ⟨66, _⟩ => ⟨S5250000, .i32⟩
  | .hbm, ⟨67, _⟩ => ⟨S5250000, .i1⟩
  | .hbm, ⟨68, _⟩ => ⟨S_, .i32⟩
  | .hbm, ⟨69, _⟩ => ⟨S5250000, .i32⟩
  | .hbm, ⟨70, _⟩ => ⟨S5250000, .i32⟩
  | .hbm, ⟨71, _⟩ => ⟨S5250000, .i32⟩
  | .hbm, ⟨72, _⟩ => ⟨S5250000x1, .i32⟩
  | .hbm, ⟨73, _⟩ => ⟨S5250000x1, .f32⟩
  | .hbm, ⟨74, _⟩ => ⟨S5250000x1, .f32⟩
  | .hbm, ⟨75, _⟩ => ⟨S_, .f32⟩
  | .hbm, ⟨76, _⟩ => ⟨S250000x1, .f32⟩
  | .hbm, ⟨77, _⟩ => ⟨S5250000x1, .i32⟩
  | .hbm, ⟨78, _⟩ => ⟨S250000x1, .f32⟩
  | .hbm, ⟨79, _⟩ => ⟨S1x1, .f32⟩
  | .hbm, ⟨80, _⟩ => ⟨S250000x1, .f32⟩
  | .local _ .vmem, ⟨0, _⟩ => ⟨S5000x1, .f32⟩
  | .local _ .vmem, ⟨1, _⟩ => ⟨S5000x1, .f32⟩
  | .local _ .vmem, ⟨2, _⟩ => ⟨S1x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S10000x1, .f32⟩
  | .local _ .vmem, ⟨8, _⟩ => ⟨S10000x1, .f32⟩
  | .local _ .vmem, ⟨9, _⟩ => ⟨S10000x16, .f32⟩
  | .local _ .vmem, ⟨10, _⟩ => ⟨S10000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x1, .f32⟩
  | .local _ .vmem, ⟨19, _⟩ => ⟨S5000x1, .f32⟩
  | .local _ .vmem, ⟨20, _⟩ => ⟨S5000x1, .f32⟩
  | .local _ .vmem, ⟨21, _⟩ => ⟨S10000x1, .f32⟩
  | .local _ .vmem, ⟨22, _⟩ => ⟨S10000x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S5000x1, .f32⟩
  | .local _ .vmem, ⟨28, _⟩ => ⟨S5000x1, .f32⟩
  | .local _ .vmem, ⟨29, _⟩ => ⟨S1x1, .f32⟩
  | .local _ .vmem, ⟨30, _⟩ => ⟨S5000x1, .f32⟩
  | .local _ .vmem, ⟨31, _⟩ => ⟨S5000x1, .f32⟩
  | _, _ => ⟨S250000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![525], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![525], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x5000000_S1x5000000_0_0 : S2x5000000.Slices ![0, 0] S1x5000000
  shapeCasts_S1x5000000_S5000000 : S1x5000000.ShapeCasts S5000000
  concatenates_S5000000_S250000_S5250000_d0 : Shape.Concatenates [S5000000, S250000] S5250000 0
  slices_S2x5000000_S1x5000000_1_0 : S2x5000000.Slices ![1, 0] S1x5000000
  bcast_S_S5250000 : S_.BroadcastsInDim S5250000 (![] : Fin 0 → Fin S5250000.rank)
  bcast_S_S250000 : S_.BroadcastsInDim S250000 (![] : Fin 0 → Fin S250000.rank)
  bcast_S5250000_S5250000x1_0 : S5250000.BroadcastsInDim S5250000x1 (![0] : Fin 1 → Fin S5250000x1.rank)
  shapeCasts_S5250000_S5250000x1 : S5250000.ShapeCasts S5250000x1
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  inb_S5000x16_S5000x16_0_0 : ∀ a, (![0, 0] : Fin 2 → Nat) a + S5000x16.size a ≤ S5000x16.size a
  h_S5000x16 : 0 < S5000x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  bcast_S_S250000x16 : S_.BroadcastsInDim S250000x16 (![] : Fin 0 → Fin S250000x16.rank)
  shapeCasts_S16_S1x16 : S16.ShapeCasts S1x16
  shapeCasts_S5000x16_S5000x16 : S5000x16.ShapeCasts S5000x16
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  bcast_S_S250000x1 : S_.BroadcastsInDim S250000x1 (![] : Fin 0 → Fin S250000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S250000_S5250000x1_S5250000_n_0_0_1_wf : ScatterDims.WF S250000 S5250000x1 S5250000 [] [0] [0] 1
  gather_S250000_S5250000x1_S5250000_n_0_n_n_0_1_1_wf : GatherDims.WF S250000 S5250000x1 S5250000 [] [0] [] [0] [] 1 ![1]
  dot_S5000x1_S1x16_S5000x16_1_0_0_1_n_n_wf : DotDims.WF S5000x1 S1x16 S5000x16 [1] [0] [0] [1] [] []
  gather_S250000x16_S5250000x1_S5250000x16_1_0_n_n_0_1_116_wf : GatherDims.WF S250000x16 S5250000x1 S5250000x16 [1] [0] [] [0] [] 1 ![1, 16]
  scatter_S250000x16_S5250000x1_S5250000x16_1_0_0_1_wf : ScatterDims.WF S250000x16 S5250000x1 S5250000x16 [1] [0] [0] 1
  dot_S5000x16_S16x1_S5000x1_1_0_0_1_n_n_wf : DotDims.WF S5000x16 S16x1 S5000x1 [1] [0] [0] [1] [] []
  gather_S250000x1_S5250000x1_S5250000x1_1_0_n_n_0_1_11_wf : GatherDims.WF S250000x1 S5250000x1 S5250000x1 [1] [0] [] [0] [] 1 ![1, 1]
  scatter_S250000x1_S5250000x1_S5250000x1_1_0_0_1_wf : ScatterDims.WF S250000x1 S5250000x1 S5250000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S250000x1.size a
  hwx0_0 : ∀ i : grid0.Coords, EltTy.bits .f32 = 32 ∨ (Rect.block (s := S250000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S250000x16.size a
  hwx0_2 : ∀ i : grid0.Coords, EltTy.bits .f32 = 32 ∨ (Rect.block (s := S250000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S5250000x16.size a
  hwx1_0 : ∀ i : grid1.Coords, EltTy.bits .f32 = 32 ∨ (Rect.block (s := S5250000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S5250000x1.size a
  hwx1_1 : ∀ i : grid1.Coords, EltTy.bits .f32 = 32 ∨ (Rect.block (s := S5250000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S5250000x16.size a
  hwx1_2 : ∀ i : grid1.Coords, EltTy.bits .f32 = 32 ∨ (Rect.block (s := S5250000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S250000x16.size a
  hwx2_0 : ∀ i : grid2.Coords, EltTy.bits .f32 = 32 ∨ (Rect.block (s := S250000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S250000x16.size a
  hwx2_2 : ∀ i : grid2.Coords, EltTy.bits .f32 = 32 ∨ (Rect.block (s := S250000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S250000x16.size a
  hwx3_0 : ∀ i : grid3.Coords, EltTy.bits .f32 = 32 ∨ (Rect.block (s := S250000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S250000x1.size a
  hwx3_2 : ∀ i : grid3.Coords, EltTy.bits .f32 = 32 ∨ (Rect.block (s := S250000x1) S5000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S5250000x1.size a
  hwx4_0 : ∀ i : grid4.Coords, EltTy.bits .f32 = 32 ∨ (Rect.block (s := S5250000x1) S10000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S5250000x1.size a
  hwx4_1 : ∀ i : grid4.Coords, EltTy.bits .f32 = 32 ∨ (Rect.block (s := S5250000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S5250000x1.size a
  hwx4_2 : ∀ i : grid4.Coords, EltTy.bits .f32 = 32 ∨ (Rect.block (s := S5250000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S250000x1.size a
  hwx5_0 : ∀ i : grid5.Coords, EltTy.bits .f32 = 32 ∨ (Rect.block (s := S250000x1) S5000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S250000x1.size a
  hwx5_2 : ∀ i : grid5.Coords, EltTy.bits .f32 = 32 ∨ (Rect.block (s := S250000x1) S5000x1.size (cc5_transform_2 i) (hinb5_2 i)).WholeWords (EltTy.packing .f32)

variable [Facts₀]

def scatter_S250000_S5250000x1_S5250000_n_0_0_1 : ScatterDims S250000 S5250000x1 S5250000 where
  updateWindowDims := []
  insertedWindowDims := [0]
  scatterDimsToOperandDims := [0]
  indexVectorDim := 1
  wf := scatter_S250000_S5250000x1_S5250000_n_0_0_1_wf
def gather_S250000_S5250000x1_S5250000_n_0_n_n_0_1_1 : GatherDims S250000 S5250000x1 S5250000 where
  offsetDims := []
  collapsedSliceDims := [0]
  operandBatchingDims := []
  startIndicesBatchingDims := []
  startIndexMap := [0]
  indexVectorDim := 1
  sliceSizes := ![1]
  wf := gather_S250000_S5250000x1_S5250000_n_0_n_n_0_1_1_wf
def dot_S5000x1_S1x16_S5000x16_1_0_0_1_n_n : DotDims S5000x1 S1x16 S5000x16 where
  lhsContracting := [1]
  rhsContracting := [0]
  lhsNonContracting := [0]
  rhsNonContracting := [1]
  lhsBatch := []
  rhsBatch := []
  wf := dot_S5000x1_S1x16_S5000x16_1_0_0_1_n_n_wf
def gather_S250000x16_S5250000x1_S5250000x16_1_0_n_n_0_1_116 : GatherDims S250000x16 S5250000x1 S5250000x16 where
  offsetDims := [1]
  collapsedSliceDims := [0]
  operandBatchingDims := []
  startIndicesBatchingDims := []
  startIndexMap := [0]
  indexVectorDim := 1
  sliceSizes := ![1, 16]
  wf := gather_S250000x16_S5250000x1_S5250000x16_1_0_n_n_0_1_116_wf
def scatter_S250000x16_S5250000x1_S5250000x16_1_0_0_1 : ScatterDims S250000x16 S5250000x1 S5250000x16 where
  updateWindowDims := [1]
  insertedWindowDims := [0]
  scatterDimsToOperandDims := [0]
  indexVectorDim := 1
  wf := scatter_S250000x16_S5250000x1_S5250000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S250000x1_S5250000x1_S5250000x1_1_0_n_n_0_1_11 : GatherDims S250000x1 S5250000x1 S5250000x1 where
  offsetDims := [1]
  collapsedSliceDims := [0]
  operandBatchingDims := []
  startIndicesBatchingDims := []
  startIndexMap := [0]
  indexVectorDim := 1
  sliceSizes := ![1, 1]
  wf := gather_S250000x1_S5250000x1_S5250000x1_1_0_n_n_0_1_11_wf
def scatter_S250000x1_S5250000x1_S5250000x1_1_0_0_1 : ScatterDims S250000x1 S5250000x1 S5250000x1 where
  updateWindowDims := [1]
  insertedWindowDims := [0]
  scatterDimsToOperandDims := [0]
  indexVectorDim := 1
  wf := scatter_S250000x1_S5250000x1_S5250000x1_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S5000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S250000x1 : Shape := ⟨2, ![250000, 1]⟩
abbrev S2x5000000 : Shape := ⟨2, ![2, 5000000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S250000 : Shape := ⟨1, ![250000]⟩
abbrev S1x5000000 : Shape := ⟨2, ![1, 5000000]⟩
abbrev S5000000 : Shape := ⟨1, ![5000000]⟩
abbrev S5250000 : Shape := ⟨1, ![5250000]⟩
abbrev S_ : Shape := ⟨0, ![]⟩
abbrev S5250000x1 : Shape := ⟨2, ![5250000, 1]⟩
abbrev S250000x16 : Shape := ⟨2, ![250000, 16]⟩
abbrev S5250000x16 : Shape := ⟨2, ![5250000, 16]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S250000x1, .f32⟩
  | .hbm, ⟨1, _⟩ => ⟨S2x5000000, .i32⟩
  | .hbm, ⟨2, _⟩ => ⟨S1x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S250000, .i32⟩
  | .hbm, ⟨7, _⟩ => ⟨S1x5000000, .i32⟩
  | .hbm, ⟨8, _⟩ => ⟨S5000000, .i32⟩
  | .hbm, ⟨9, _⟩ => ⟨S5250000, .i32⟩
  | .hbm, ⟨10, _⟩ => ⟨S1x5000000, .i32⟩
  | .hbm, ⟨11, _⟩ => ⟨S5000000, .i32⟩
  | .hbm, ⟨12, _⟩ => ⟨S5250000, .i32⟩
  | .hbm, ⟨13, _⟩ => ⟨S_, .f32⟩
  | .hbm, ⟨14, _⟩ => ⟨S5250000, .f32⟩
  | .hbm, ⟨15, _⟩ => ⟨S_, .f32⟩
  | .hbm, ⟨16, _⟩ => ⟨S250000, .f32⟩
  | .hbm, ⟨17, _⟩ => ⟨S5250000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .i1⟩
  | .hbm, ⟨22, _⟩ => ⟨S250000, .f32⟩
  | .hbm, ⟨23, _⟩ => ⟨S_, .f32⟩
  | .hbm, ⟨24, _⟩ => ⟨S_, .f32⟩
  | .hbm, ⟨25, _⟩ => ⟨S250000, .f32⟩
  | .hbm, ⟨26, _⟩ => ⟨S250000, .f32⟩
  | .hbm, ⟨27, _⟩ => ⟨S_, .i32⟩
  | .hbm, ⟨28, _⟩ => ⟨S5250000, .i32⟩
  | .hbm, ⟨29, _⟩ => ⟨S5250000, .i1⟩
  | .hbm, ⟨30, _⟩ => ⟨S_, .i32⟩
  | .hbm, ⟨31, _⟩ => ⟨S5250000, .i32⟩
  | .hbm, ⟨32, _⟩ => ⟨S5250000, .i32⟩
  | .hbm, ⟨33, _⟩ => ⟨S5250000, .i32⟩
  | .hbm, ⟨34, _⟩ => ⟨S5250000x1, .i32⟩
  | .hbm, ⟨35, _⟩ => ⟨S5250000, .f32⟩
  | .hbm, ⟨36, _⟩ => ⟨S_, .i32⟩
  | .hbm, ⟨37, _⟩ => ⟨S5250000, .i32⟩
  | .hbm, ⟨38, _⟩ => ⟨S5250000, .i1⟩
  | .hbm, ⟨39, _⟩ => ⟨S_, .i32⟩
  | .hbm, ⟨40, _⟩ => ⟨S5250000, .i32⟩
  | .hbm, ⟨41, _⟩ => ⟨S5250000, .i32⟩
  | .hbm, ⟨42, _⟩ => ⟨S5250000, .i32⟩
  | .hbm, ⟨43, _⟩ => ⟨S5250000x1, .i32⟩
  | .hbm, ⟨44, _⟩ => ⟨S5250000, .f32⟩
  | .hbm, ⟨45, _⟩ => ⟨S5250000, .f32⟩
  | .hbm, ⟨46, _⟩ => ⟨S250000x16, .f32⟩
  | .hbm, ⟨47, _⟩ => ⟨S_, .i32⟩
  | .hbm, ⟨48, _⟩ => ⟨S5250000, .i32⟩
  | .hbm, ⟨49, _⟩ => ⟨S5250000, .i1⟩
  | .hbm, ⟨50, _⟩ => ⟨S_, .i32⟩
  | .hbm, ⟨51, _⟩ => ⟨S5250000, .i32⟩
  | .hbm, ⟨52, _⟩ => ⟨S5250000, .i32⟩
  | .hbm, ⟨53, _⟩ => ⟨S5250000, .i32⟩
  | .hbm, ⟨54, _⟩ => ⟨S5250000x1, .i32⟩
  | .hbm, ⟨55, _⟩ => ⟨S5250000x16, .f32⟩
  | .hbm, ⟨56, _⟩ => ⟨S5250000x1, .f32⟩
  | .hbm, ⟨57, _⟩ => ⟨S5250000x16, .f32⟩
  | .hbm, ⟨58, _⟩ => ⟨S5250000x16, .f32⟩
  | .hbm, ⟨59, _⟩ => ⟨S_, .f32⟩
  | .hbm, ⟨60, _⟩ => ⟨S250000x16, .f32⟩
  | .hbm, ⟨61, _⟩ => ⟨S5250000x1, .i32⟩
  | .hbm, ⟨62, _⟩ => ⟨S250000x16, .f32⟩
  | .hbm, ⟨63, _⟩ => ⟨S1x16, .f32⟩
  | .hbm, ⟨64, _⟩ => ⟨S250000x16, .f32⟩
  | .hbm, ⟨65, _⟩ => ⟨S250000x16, .f32⟩
  | .hbm, ⟨66, _⟩ => ⟨S_, .f32⟩
  | .hbm, ⟨67, _⟩ => ⟨S250000x16, .f32⟩
  | .hbm, ⟨68, _⟩ => ⟨S250000x16, .f32⟩
  | .hbm, ⟨69, _⟩ => ⟨S250000x1, .f32⟩
  | .hbm, ⟨70, _⟩ => ⟨S_, .i32⟩
  | .hbm, ⟨71, _⟩ => ⟨S5250000, .i32⟩
  | .hbm, ⟨72, _⟩ => ⟨S5250000, .i1⟩
  | .hbm, ⟨73, _⟩ => ⟨S_, .i32⟩
  | .hbm, ⟨74, _⟩ => ⟨S5250000, .i32⟩
  | .hbm, ⟨75, _⟩ => ⟨S5250000, .i32⟩
  | .hbm, ⟨76, _⟩ => ⟨S5250000, .i32⟩
  | .hbm, ⟨77, _⟩ => ⟨S5250000x1, .i32⟩
  | .hbm, ⟨78, _⟩ => ⟨S5250000x1, .f32⟩
  | .hbm, ⟨79, _⟩ => ⟨S5250000x1, .f32⟩
  | .hbm, ⟨80, _⟩ => ⟨S5250000x1, .f32⟩
  | .hbm, ⟨81, _⟩ => ⟨S_, .f32⟩
  | .hbm, ⟨82, _⟩ => ⟨S250000x1, .f32⟩
  | .hbm, ⟨83, _⟩ => ⟨S5250000x1, .i32⟩
  | .hbm, ⟨84, _⟩ => ⟨S250000x1, .f32⟩
  | .hbm, ⟨85, _⟩ => ⟨S1x1, .f32⟩
  | .hbm, ⟨86, _⟩ => ⟨S250000x1, .f32⟩
  | .hbm, ⟨87, _⟩ => ⟨S250000x1, .f32⟩
  | _, _ => ⟨S250000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  concatenates_S5000000_S250000_S5250000_d0 : Shape.Concatenates [S5000000, S250000] S5250000 0
  slices_S2x5000000_S1x5000000_1_0 : S2x5000000.Slices ![1, 0] S1x5000000
  bcast_S_S5250000 : S_.BroadcastsInDim S5250000 (![] : Fin 0 → Fin S5250000.rank)
  bcast_S_S250000 : S_.BroadcastsInDim S250000 (![] : Fin 0 → Fin S250000.rank)
  bcast_S5250000_S5250000x1_0 : S5250000.BroadcastsInDim S5250000x1 (![0] : Fin 1 → Fin S5250000x1.rank)
  bcast_S5250000x1_S5250000x16_0_1 : S5250000x1.BroadcastsInDim S5250000x16 (![0, 1] : Fin 2 → Fin S5250000x16.rank)
  bcast_S_S250000x16 : S_.BroadcastsInDim S250000x16 (![] : Fin 0 → Fin S250000x16.rank)
  bcast_S16_S1x16_1 : S16.BroadcastsInDim S1x16 (![1] : Fin 1 → Fin S1x16.rank)
  bcast_S1x16_S250000x16_0_1 : S1x16.BroadcastsInDim S250000x16 (![0, 1] : Fin 2 → Fin S250000x16.rank)
  bcast_S_S250000x1 : S_.BroadcastsInDim S250000x1 (![] : Fin 0 → Fin S250000x1.rank)
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  scatter_S250000_S5250000x1_S5250000_n_0_0_1_wf : ScatterDims.WF S250000 S5250000x1 S5250000 [] [0] [0] 1
  gather_S250000_S5250000x1_S5250000_n_0_n_n_0_1_1_wf : GatherDims.WF S250000 S5250000x1 S5250000 [] [0] [] [0] [] 1 ![1]
  dot_S250000x1_S1x16_S250000x16_1_0_0_1_n_n_wf : DotDims.WF S250000x1 S1x16 S250000x16 [1] [0] [0] [1] [] []
  gather_S250000x16_S5250000x1_S5250000x16_1_0_n_n_0_1_116_wf : GatherDims.WF S250000x16 S5250000x1 S5250000x16 [1] [0] [] [0] [] 1 ![1, 16]
  scatter_S250000x16_S5250000x1_S5250000x16_1_0_0_1_wf : ScatterDims.WF S250000x16 S5250000x1 S5250000x16 [1] [0] [0] 1
  dot_S250000x16_S16x1_S250000x1_1_0_0_1_n_n_wf : DotDims.WF S250000x16 S16x1 S250000x1 [1] [0] [0] [1] [] []
  gather_S250000x1_S5250000x1_S5250000x1_1_0_n_n_0_1_11_wf : GatherDims.WF S250000x1 S5250000x1 S5250000x1 [1] [0] [] [0] [] 1 ![1, 1]
  scatter_S250000x1_S5250000x1_S5250000x1_1_0_0_1_wf : ScatterDims.WF S250000x1 S5250000x1 S5250000x1 [1] [0] [0] 1

variable [Facts₀]

def scatter_S250000_S5250000x1_S5250000_n_0_0_1 : ScatterDims S250000 S5250000x1 S5250000 where
  updateWindowDims := []
  insertedWindowDims := [0]
  scatterDimsToOperandDims := [0]
  indexVectorDim := 1
  wf := scatter_S250000_S5250000x1_S5250000_n_0_0_1_wf
def gather_S250000_S5250000x1_S5250000_n_0_n_n_0_1_1 : GatherDims S250000 S5250000x1 S5250000 where
  offsetDims := []
  collapsedSliceDims := [0]
  operandBatchingDims := []
  startIndicesBatchingDims := []
  startIndexMap := [0]
  indexVectorDim := 1
  sliceSizes := ![1]
  wf := gather_S250000_S5250000x1_S5250000_n_0_n_n_0_1_1_wf
def dot_S250000x1_S1x16_S250000x16_1_0_0_1_n_n : DotDims S250000x1 S1x16 S250000x16 where
  lhsContracting := [1]
  rhsContracting := [0]
  lhsNonContracting := [0]
  rhsNonContracting := [1]
  lhsBatch := []
  rhsBatch := []
  wf := dot_S250000x1_S1x16_S250000x16_1_0_0_1_n_n_wf
def gather_S250000x16_S5250000x1_S5250000x16_1_0_n_n_0_1_116 : GatherDims S250000x16 S5250000x1 S5250000x16 where
  offsetDims := [1]
  collapsedSliceDims := [0]
  operandBatchingDims := []
  startIndicesBatchingDims := []
  startIndexMap := [0]
  indexVectorDim := 1
  sliceSizes := ![1, 16]
  wf := gather_S250000x16_S5250000x1_S5250000x16_1_0_n_n_0_1_116_wf
def scatter_S250000x16_S5250000x1_S5250000x16_1_0_0_1 : ScatterDims S250000x16 S5250000x1 S5250000x16 where
  updateWindowDims := [1]
  insertedWindowDims := [0]
  scatterDimsToOperandDims := [0]
  indexVectorDim := 1
  wf := scatter_S250000x16_S5250000x1_S5250000x16_1_0_0_1_wf
def dot_S250000x16_S16x1_S250000x1_1_0_0_1_n_n : DotDims S250000x16 S16x1 S250000x1 where
  lhsContracting := [1]
  rhsContracting := [0]
  lhsNonContracting := [0]
  rhsNonContracting := [1]
  lhsBatch := []
  rhsBatch := []
  wf := dot_S250000x16_S16x1_S250000x1_1_0_0_1_n_n_wf
def gather_S250000x1_S5250000x1_S5250000x1_1_0_n_n_0_1_11 : GatherDims S250000x1 S5250000x1 S5250000x1 where
  offsetDims := [1]
  collapsedSliceDims := [0]
  operandBatchingDims := []
  startIndicesBatchingDims := []
  startIndexMap := [0]
  indexVectorDim := 1
  sliceSizes := ![1, 1]
  wf := gather_S250000x1_S5250000x1_S5250000x1_1_0_n_n_0_1_11_wf
def scatter_S250000x1_S5250000x1_S5250000x1_1_0_0_1 : ScatterDims S250000x1 S5250000x1 S5250000x1 where
  updateWindowDims := [1]
  insertedWindowDims := [0]
  scatterDimsToOperandDims := [0]
  indexVectorDim := 1
  wf := scatter_S250000x1_S5250000x1_S5250000x1_1_0_0_1_wf

class Facts : Prop extends Facts₀ where

variable [Facts]
-- ==== Proof.KernelRun.lean ====
/-
  The idealized kernel's run with its result named. The program is six device regions among stretches of host
  operations; its buffers' contents at the thirteen segment boundaries are a fold from the launch memory (a host
  stretch applies its operations, a region replaces its output array by what its write-backs leave). Every weakly fair
  execution terminates with each unscoped buffer at the last boundary's contents: in particular the result buffer holds
  the last boundary's contents at that buffer, and the six arguments are as launched.
-/
import proofs.«103907_j89455578841822_2_alg».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v58 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Hand

end
-- ==== Proof.LibRowOps.lean ====
/-
  Row-wise operations on matrices of extended reals, generic in the sizes, each with the forms it takes in a program:
  on the host (broadcast_in_dim, dot_general) and inside a vector unit's body (shape casts, vector.broadcast, the matrix
  unit's product into a zero accumulator).

    reluRow a b     entry (r, c) is max (a(r, c) + b(0, c)) 0
    scaleRows g n   entry (r, c) is g(r, c) · n(r, 0):        every row of g scaled by that row's entry of the column n
    addRow a b      entry (r, c) is a(r, c) + b(0, c):        the row b added to every row of a
    matProd x w     entry (r, c) is ∑ k, x(r, k) · w(k, c):   the matrix product

  A column [A] cast to [A, 1] is the same array as that column broadcast along a new unit axis (colCast_eq_bcast), and
  likewise a row [B] cast to [1, B] (rowCast_eq_bcast).
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowOps

open Idealize.ShloMosaic Idealize.ShloMosaic.ValueIdx

/-- The entry of column 0 in the row of `i`. -/
abbrev col0 {A B : ℕ} (i : (⟨2, ![A, B]⟩ : Shape).Idx) : (⟨2, ![A, 1]⟩ : Shape).Idx :=
  ix2 (⟨(i 0).val, idx2_lt0 i⟩ : Fin A) (0 : Fin 1)

/-- The entry of row 0 in the column of `i`. -/
abbrev row0 {A B : ℕ} (i : (⟨2, ![A, B]⟩ : Shape).Idx) : (⟨2, ![1, B]⟩ : Shape).Idx :=
  ix2 (0 : Fin 1) (⟨(i 1).val, idx2_lt1 i⟩ : Fin B)

/-- Every row of `g` scaled by that row's entry of the column `n`. -/
def scaleRows {A B : ℕ} (g : (⟨2, ![A, B]⟩ : Shape).Idx → EReal) (n : (⟨2, ![A, 1]⟩ : Shape).Idx → EReal) :
    (⟨2, ![A, B]⟩ : Shape).Idx → EReal := fun i => g i * n (col0 i)

/-- The row `b` added to every row of `a`. -/
def addRow {A B : ℕ} (a : (⟨2, ![A, B]⟩ : Shape).Idx → EReal) (b : (⟨2, ![1, B]⟩ : Shape).Idx → EReal) :
    (⟨2, ![A, B]⟩ : Shape).Idx → EReal := fun i => a i + b (row0 i)

/-- The row `b` added to every row of `a`, then every entry cut off below at zero. -/
def reluRow {A B : ℕ} (a : (⟨2, ![A, B]⟩ : Shape).Idx → EReal) (b : (⟨2, ![1, B]⟩ : Shape).Idx → EReal) :
    (⟨2, ![A, B]⟩ : Shape).Idx → EReal := fun i => max (addRow a b i) (Ideal.ofBits .f32 0x00000000#32)

/-- The matrix product. -/
def matProd {A K B : ℕ} (x : (⟨2, ![A, K]⟩ : Shape).Idx → EReal) (w : (⟨2, ![K, B]⟩ : Shape).Idx → EReal) :
    (⟨2, ![A, B]⟩ : Shape).Idx → EReal :=
  fun i => ∑ k : Fin K, x (ix2 (⟨(i 0).val, idx2_lt0 i⟩ : Fin A) k) * w (ix2 k (⟨(i 1).val, idx2_lt1 i⟩ : Fin B))

/-! ## On the host -/

/-- A column [A, 1] broadcast to [A, B] along its unit axis reads, at `i`, the column's entry in the row of `i`. -/
theorem bcastCol_apply {A B : ℕ} (h : (⟨2, ![A, 1]⟩ : Shape).BroadcastsInDim ⟨2, ![A, B]⟩ ![0, 1])
    (n : (⟨2, ![A, 1]⟩ : Shape).Idx → EReal) (i : (⟨2, ![A, B]⟩ : Shape).Idx) :
    broadcastInDim ⟨2, ![A, B]⟩ ![0, 1] h n i = n (col0 i) :=
  broadcastInDim_apply _ h n i (col0 i) (fun a => match a with
    | ⟨0, _⟩ => by
      show (i 0).val = if A = 1 then 0 else (i 0).val
      split
      · have := idx2_lt0 i; omega
      · rfl
    | ⟨1, _⟩ => by show 0 = if (1 : ℕ) = 1 then 0 else (i 1).val; rw [if_pos rfl])

/-- The host's product of `g` with the column `n` broadcast over the columns is `scaleRows g n`. -/
theorem mulf_bcastCol {A B : ℕ} (h : (⟨2, ![A, 1]⟩ : Shape).BroadcastsInDim ⟨2, ![A, B]⟩ ![0, 1])
    (g : FVec Ideal ⟨2, ![A, B]⟩ .f32) (n : FVec Ideal ⟨2, ![A, 1]⟩ .f32) :
    mulf g (broadcastInDim ⟨2, ![A, B]⟩ ![0, 1] h n) = scaleRows g n :=
  funext fun i => by
    show g i * broadcastInDim ⟨2, ![A, B]⟩ ![0, 1] h n i = g i * n (col0 i)
    rw [bcastCol_apply]

/-- A row [1, B] broadcast to [A, B] along its unit axis reads, at `i`, the row's entry in the column of `i`. -/
theorem bcastRow_apply {A B : ℕ} (h : (⟨2, ![1, B]⟩ : Shape).BroadcastsInDim ⟨2, ![A, B]⟩ ![0, 1])
    (b : (⟨2, ![1, B]⟩ : Shape).Idx → EReal) (i : (⟨2, ![A, B]⟩ : Shape).Idx) :
    broadcastInDim ⟨2, ![A, B]⟩ ![0, 1] h b i = b (row0 i) :=
  broadcastInDim_apply _ h b i (row0 i) (fun a => match a with
    | ⟨0, _⟩ => by show 0 = if (1 : ℕ) = 1 then 0 else (i 0).val; rw [if_pos rfl]
    | ⟨1, _⟩ => by
      show (i 1).val = if B = 1 then 0 else (i 1).val
      split
      · have := idx2_lt1 i; omega
      · rfl)

/-- The host's sum of `a` with the row `b` broadcast over the rows is `addRow a b`. -/
theorem addf_bcastRow {A B : ℕ} (h : (⟨2, ![1, B]⟩ : Shape).BroadcastsInDim ⟨2, ![A, B]⟩ ![0, 1])
    (a : FVec Ideal ⟨2, ![A, B]⟩ .f32) (b : FVec Ideal ⟨2, ![1, B]⟩ .f32) :
    addf a (broadcastInDim ⟨2, ![A, B]⟩ ![0, 1] h b) = addRow a b :=
  funext fun i => by
    show a i + broadcastInDim ⟨2, ![A, B]⟩ ![0, 1] h b i = a i + b (row0 i)
    rw [bcastRow_apply]

/-- The host's maximum of `addRow a b` with the zero constant broadcast to the whole shape is `reluRow a b`. -/
theorem maximumf_bcastZero {A B : ℕ} (h : (⟨0, ![]⟩ : Shape).BroadcastsInDim ⟨2, ![A, B]⟩ ![])
    (a : (⟨2, ![A, B]⟩ : Shape).Idx → EReal) (b : (⟨2, ![1, B]⟩ : Shape).Idx → EReal) :
    maximumf (F := Ideal) (s := ⟨2, ![A, B]⟩) (φ := .f32) (addRow a b)
      (broadcastInDim ⟨2, ![A, B]⟩ ![] h (constant (F := Ideal) ⟨0, ![]⟩ .f32 0x00000000#32)) = reluRow a b :=
  funext fun i => rfl

/-- A column [A] cast to [A, 1] is that column broadcast along a new trailing unit axis. -/
theorem colCast_eq_bcast {A : ℕ} {α : Type} (hc : (⟨1, ![A]⟩ : Shape).ShapeCasts ⟨2, ![A, 1]⟩)
    (hb : (⟨1, ![A]⟩ : Shape).BroadcastsInDim ⟨2, ![A, 1]⟩ ![0]) (v : (⟨1, ![A]⟩ : Shape).Idx → α) :
    shapeCast ⟨2, ![A, 1]⟩ v hc = broadcastInDim ⟨2, ![A, 1]⟩ ![0] hb v :=
  funext fun i => by
    have hi1 : (i 1).val = 0 := by have := idx2_lt1 i; omega
    rw [shapeCast_apply v hc i (ix1 (⟨(i 0).val, idx2_lt0 i⟩ : Fin A)) (by
          rw [Shape.rowMajor_val_two, Shape.rowMajor_val_one]
          show (i 0).val = (i 0).val * 1 + (i 1).val
          rw [hi1, Nat.mul_one, Nat.add_zero]),
      broadcastInDim_apply _ hb v i (ix1 (⟨(i 0).val, idx2_lt0 i⟩ : Fin A)) (fun a => match a with
        | ⟨0, _⟩ => by
          show (i 0).val = if A = 1 then 0 else (i 0).val
          split
          · have := idx2_lt0 i; omega
          · rfl)]

/-- A row [B] cast to [1, B] is that row broadcast along a new leading unit axis. -/
theorem rowCast_eq_bcast {B : ℕ} {α : Type} (hc : (⟨1, ![B]⟩ : Shape).ShapeCasts ⟨2, ![1, B]⟩)
    (hb : (⟨1, ![B]⟩ : Shape).BroadcastsInDim ⟨2, ![1, B]⟩ ![1]) (v : (⟨1, ![B]⟩ : Shape).Idx → α) :
    shapeCast ⟨2, ![1, B]⟩ v hc = broadcastInDim ⟨2, ![1, B]⟩ ![1] hb v :=
  funext fun i => by
    have hi0 : (i 0).val = 0 := by have := idx2_lt0 i; omega
    rw [shapeCast_apply v hc i (ix1 (⟨(i 1).val, idx2_lt1 i⟩ : Fin B)) (by
          rw [Shape.rowMajor_val_two, Shape.rowMajor_val_one]
          show (i 1).val = (i 0).val * B + (i 1).val
          rw [hi0, Nat.zero_mul, Nat.zero_add]),
      broadcastInDim_apply _ hb v i (ix1 (⟨(i 1).val, idx2_lt1 i⟩ : Fin B)) (fun a => match a with
        | ⟨0, _⟩ => by
          show (i 1).val = if B = 1 then 0 else (i 1).val
          split
          · have := idx2_lt1 i; omega
          · rfl)]

/-- The host's `dot_general` of an [A, K] by a [K, B] matrix, contracting the one shared axis, is the matrix product:
    for any dimension record whose index facts say the left index takes the output row and the contraction position and
    the right index the contraction position and the output column. -/
theorem dotGeneral_eq_matProd {A K B : ℕ}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (sched : HostSchedule)
    (L : FVec Ideal ⟨2, ![A, K]⟩ .f32) (R : FVec Ideal ⟨2, ![K, B]⟩ .f32) :
    FloatOps.dotGeneral d prec sched L R = matProd L R :=
  funext fun i => by
    rw [Ideal.dotGeneral_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

/-! ## Inside a vector unit's body -/

/-- The body's product of a block `x0` with a column block `x1` broadcast over the columns is `scaleRows x0 x1`. -/
theorem mulf_broadcastTo_col {A B : ℕ} (h : (⟨2, ![A, 1]⟩ : Shape).Broadcasts ⟨2, ![A, B]⟩)
    (x0 : FVec Ideal ⟨2, ![A, B]⟩ .f32) (x1 : FVec Ideal ⟨2, ![A, 1]⟩ .f32) :
    mulf x0 (broadcastTo ⟨2, ![A, B]⟩ x1 h) = scaleRows x0 x1 :=
  funext fun i => by
    show x0 i * broadcastTo ⟨2, ![A, B]⟩ x1 h i = x0 i * x1 (col0 i)
    refine congrArg (x0 i * ·) (broadcastTo_apply x1 h i (col0 i) fun a => ?_)
    match a with
    | ⟨0, _⟩ =>
      show (i 0).val = if A = 1 then 0 else (i 0).val
      split
      · have := idx2_lt0 i; omega
      · rfl
    | ⟨1, _⟩ => rfl

/-- The body's sum of a block `x0` with a row block `x1` broadcast over the rows is `addRow x0 x1`. -/
theorem addf_broadcastTo_row {A B : ℕ} (h : (⟨2, ![1, B]⟩ : Shape).Broadcasts ⟨2, ![A, B]⟩)
    (x0 : FVec Ideal ⟨2, ![A, B]⟩ .f32) (x1 : FVec Ideal ⟨2, ![1, B]⟩ .f32) :
    addf x0 (broadcastTo ⟨2, ![A, B]⟩ x1 h) = addRow x0 x1 :=
  funext fun i => by
    show x0 i + broadcastTo ⟨2, ![A, B]⟩ x1 h i = x0 i + x1 (row0 i)
    refine congrArg (x0 i + ·) (broadcastTo_apply x1 h i (row0 i) fun a => ?_)
    match a with
    | ⟨0, _⟩ => rfl
    | ⟨1, _⟩ =>
      show (i 1).val = if B = 1 then 0 else (i 1).val
      split
      · have := idx2_lt1 i; omega
      · rfl

/-- The body's maximum of `addRow x0 x1` with the zero splat is `reluRow x0 x1`. -/
theorem maximumf_splatZero {A B : ℕ} (x0 : (⟨2, ![A, B]⟩ : Shape).Idx → EReal) (x1 : (⟨2, ![1, B]⟩ : Shape).Idx → EReal) :
    maximumf (F := Ideal) (s := ⟨2, ![A, B]⟩) (φ := .f32) (addRow x0 x1)
      (broadcast ⟨2, ![A, B]⟩ (Scalar.ofBits (F := Ideal) .f32 0x00000000#32)) = reluRow x0 x1 :=
  funext fun i => rfl

/-- The matrix unit's product into a zero accumulator is the matrix product (the operands' change of float format is
    the identity on extended reals), under the same index facts as `dotGeneral_eq_matProd`. -/
theorem matmul_eq_matProd {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) :
    FloatOps.matmul d prec L R (constant ⟨2, ![A, B]⟩ .f32 0x00000000#32) = matProd (fun j => L j) (fun j => R j) :=
  funext fun i => by
    rw [Ideal.matmul_constant_zero_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

end Cert.RowOps

end
-- ==== Proof.RegionLin1.lean ====
/-
  The first layer's dense projection: the node features (one column) times the first weight matrix (1 × 16). The region
  walks the 250 000 node rows in 50 bands of 5 000; in band t the matrix unit multiplies the band of features by the
  whole weight matrix into a zero accumulator (the operands' change of float format is the identity on extended reals).
  Entry (r, c) of a band's product depends on row r of the band and column c of the weights only, so the array the
  region leaves is the product of the whole feature array by the weight matrix.
-/
import proofs.«103907_j89455578841822_2_alg».proof.Proof.Gen.KernelIdeal.Frame
import proofs.«103907_j89455578841822_2_alg».proof.Proof.LibRowOps
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Lin1

open Cert.KernelIdeal Cert.KernelIdeal.Gen Idealize.ShloMosaic.ValueIdx Cert

variable (V : (c : Dev nD) → (b : Ref sig .tc) → Buf (Elt Ideal) ((c : Thread nD τ).loc b))

theorem hz : (![0, 0] : Fin 2 → Nat) = fun _ => 0 := funext fun a => by fin_cases a <;> rfl

/-- One band's result: the band of features times the weight matrix. -/
theorem pay_eq (x0 : Vec Ideal S5000x1 .f32) (x1 : Vec Ideal S1x16 .f32) : k0_pay1 x0 x1 = RowOps.matProd x0 x1 := by
  unfold k0_pay1
  refine RowOps.matmul_eq_matProd dot_S5000x1_S1x16_S5000x16_1_0_0_1_n_n rfl rfl
    (fun i q => by
      unfold DotDims.lhsIdx
      rw [dif_neg (show ¬(0 : Fin 2) ∈ dot_S5000x1_S1x16_S5000x16_1_0_0_1_n_n.lhsBatch by decide), dif_pos (show (0 : Fin 2) ∈ dot_S5000x1_S1x16_S5000x16_1_0_0_1_n_n.lhsNonContracting by decide)]
      rfl)
    (fun i q => dot_S5000x1_S1x16_S5000x16_1_0_0_1_n_n.lhsIdx_val_of_single rfl i q)
    (fun i q => dot_S5000x1_S1x16_S5000x16_1_0_0_1_n_n.rhsIdx_val_of_single rfl i q)
    (fun i q => by
      unfold DotDims.rhsIdx
      rw [dif_neg (show ¬(1 : Fin 2) ∈ dot_S5000x1_S1x16_S5000x16_1_0_0_1_n_n.rhsBatch by decide), dif_pos (show (1 : Fin 2) ∈ dot_S5000x1_S1x16_S5000x16_1_0_0_1_n_n.rhsNonContracting by decide)]
      rfl)
    none _ _

/-- Where each window's block sits at band t: the row bands start at row 5000·t, column 0; the second operand is one block, the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What band t writes back is band t of the whole-array function of the two operand arrays as the region finds them. -/
theorem flushed_eq (c : Dev nD) (t : Fin cfg0.N) :
    (dat0 V c).flushed 2 t = ((cfg0.win 2).blk t).view.read (Elt Ideal) (RowOps.matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x1) hz, View.ld_unit_zero (S := S1x16) hz]
  rw [pay_eq]
  obtain ⟨e0, e1, e2, e3, e4, e5⟩ := idx_facts t
  funext j
  have hj0 : (j 0).val < 5000 := (j 0).isLt
  have hj1 : (j 1).val < 16 := (j 1).isLt
  have hl : ∀ k : Fin 1, ((cfg0.win 0).blk t).view.emb (ix2 (⟨(j 0).val, hj0⟩ : Fin 5000) k)
      = ix2 (⟨((((cfg0.win 2).blk t).view.emb j) 0).val, idx2_lt0 _⟩ : Fin 250000) k := fun k => by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 1 + 1 * k.val = k.val; omega
  have hr : ∀ k : Fin 1, ((cfg0.win 1).blk t).view.emb (ix2 k (⟨(j 1).val, hj1⟩ : Fin 16))
      = ix2 k (⟨((((cfg0.win 2).blk t).view.emb j) 1).val, idx2_lt1 _⟩ : Fin 16) := fun k => by
    funext a; apply Fin.ext
    match a with
    | ⟨0, _⟩ => show win0_1.index t (0 : Fin 2) * 1 + 1 * k.val = k.val; omega
    | ⟨1, _⟩ => show win0_1.index t (1 : Fin 2) * 16 + 1 * (j 1).val = win0_2.index t (1 : Fin 2) * 16 + 1 * (j 1).val; omega
  have key : ∀ (A : S250000x1.Idx → EReal) (B : S1x16.Idx → EReal),
      RowOps.matProd (A := 5000) (K := 1) (B := 16) (fun y => A (((cfg0.win 0).blk t).view.emb y)) (fun y => B (((cfg0.win 1).blk t).view.emb y)) j
        = RowOps.matProd A B (((cfg0.win 2).blk t).view.emb j) := by
    intro A B
    show (∑ k : Fin 1, A (((cfg0.win 0).blk t).view.emb (ix2 (⟨(j 0).val, hj0⟩ : Fin 5000) k)) * B (((cfg0.win 1).blk t).view.emb (ix2 k (⟨(j 1).val, hj1⟩ : Fin 16))))
      = ∑ k : Fin 1, A (ix2 (⟨((((cfg0.win 2).blk t).view.emb j) 0).val, idx2_lt0 _⟩ : Fin 250000) k) * B (ix2 k (⟨((((cfg0.win 2).blk t).view.emb j) 1).val, idx2_lt1 _⟩ : Fin 16))
    exact Finset.sum_congr rfl fun k _ => by rw [hl k, hr k]
  exact key (V c main_arg0) (V c main_arg2)

/-- An index of the output array lies in band t exactly when each coordinate lies in the band's range on its axis. -/
theorem mem_blk (t : Fin cfg0.N) (i : S250000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v31).slice (win0_2.rect t)).set ↔ _
  rw [View.set_slice_whole, Rect.mem_set_unit]
  exact Iff.rfl

/-- Every row is in some band: row r is in band r / 5000. -/
theorem cover (i : S250000x16.Idx) :
    ∃ t : Fin cfg0.N, (cfg0.win 2).flush t = true ∧ i ∈ ((cfg0.win 2).blk t).view.set := by
  have hi0 : (i 0).val < 250000 := (i 0).isLt
  have hi1 : (i 1).val < 16 := (i 1).isLt
  have hN : cfg0.N = 50 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 16 ≤ (i 1).val ∧ (i 1).val < win0_2.index _ (1 : Fin 2) * 16 + 16
    rw [e5]; omega

/-- The array the region leaves. -/
theorem final (c : Dev nD) : (dat0 V c).arrAt 2 cfg0.N = RowOps.matProd (V c main_arg0) (V c main_arg2) :=
  (dat0 V c).arrAt_eq_of_cover 2 _ (fun t _ => flushed_eq V c t) cover

end Cert.KernelIdeal.Lin1

end
-- ==== Proof.RegionScale16.lean ====
/-
  The first layer's message scaling: every edge's gathered feature row (sixteen entries) times that edge's
  normalisation coefficient. The region walks the 5 250 000 edge rows in 525 bands of 10 000; in band t it scales each
  row of the band of gathered rows by the same row of the band of the coefficient column. So the array it leaves is
  every row of the whole gathered array scaled by its coefficient: each band is the restriction of that one function,
  and the bands cover every row (row r lies in band r / 10000).
-/
import proofs.«103907_j89455578841822_2_alg».proof.Proof.Gen.KernelIdeal.Frame
import proofs.«103907_j89455578841822_2_alg».proof.Proof.LibRowOps
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Scale16

open Cert.KernelIdeal Cert.KernelIdeal.Gen Idealize.ShloMosaic.ValueIdx Cert

variable (V : (c : Dev nD) → (b : Ref sig .tc) → Buf (Elt Ideal) ((c : Thread nD τ).loc b))

theorem hz : (![0, 0] : Fin 2 → Nat) = fun _ => 0 := funext fun a => by fin_cases a <;> rfl

/-- One band's result: each row of the loaded band scaled by that row's loaded coefficient (the identity casts dropped). -/
theorem pay_eq (x0 : Vec Ideal S10000x16 .f32) (x1 : Vec Ideal S10000x1 .f32) : k1_pay1 x0 x1 = RowOps.scaleRows x0 x1 := by
  unfold k1_pay1
  simp only [shapeCast_self]
  exact RowOps.mulf_broadcastTo_col _ x0 x1

/-- Where each window's block sits at band t: the row bands start at row 10000·t, column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What band t writes back is band t of the whole-array function of the two operand arrays as the region finds them. -/
theorem flushed_eq (c : Dev nD) (t : Fin cfg1.N) :
    (dat1 V c).flushed 2 t = ((cfg1.win 2).blk t).view.read (Elt Ideal) (RowOps.scaleRows (V c main_v38) (V c main_v30)) := by
  show (cfg1.win 2).cut (grid1.coords t) ((dat1 V c).after 2 t) = _
  rw [after1_2]
  unfold out1_2
  rw [View.canon_unit_zero hz]
  simp only [View.ld_unit_zero (S := S10000x16) hz, View.ld_unit_zero (S := S10000x1) hz]
  rw [pay_eq]
  obtain ⟨e0, e1, e2, e3, e4, e5⟩ := idx_facts t
  funext j
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (RowOps.col0 j) = RowOps.col0 (((cfg1.win 2).blk t).view.emb j) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  have key : ∀ (A : S5250000x16.Idx → EReal) (B : S5250000x1.Idx → EReal),
      RowOps.scaleRows (A := 10000) (B := 16) (fun y => A (((cfg1.win 0).blk t).view.emb y)) (fun y => B (((cfg1.win 1).blk t).view.emb y)) j
        = RowOps.scaleRows A B (((cfg1.win 2).blk t).view.emb j) := by
    intro A B
    show A (((cfg1.win 0).blk t).view.emb j) * B (((cfg1.win 1).blk t).view.emb (RowOps.col0 j)) = A (((cfg1.win 2).blk t).view.emb j) * B (RowOps.col0 (((cfg1.win 2).blk t).view.emb j))
    rw [h0, h1]
  exact key (V c main_v38) (V c main_v30)

/-- An index of the output array lies in band t exactly when each coordinate lies in the band's range on its axis. -/
theorem mem_blk (t : Fin cfg1.N) (i : S5250000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v39).slice (win1_2.rect t)).set ↔ _
  rw [View.set_slice_whole, Rect.mem_set_unit]
  exact Iff.rfl

/-- Every row is in some band: row r is in band r / 10000. -/
theorem cover (i : S5250000x16.Idx) :
    ∃ t : Fin cfg1.N, (cfg1.win 2).flush t = true ∧ i ∈ ((cfg1.win 2).blk t).view.set := by
  have hi0 : (i 0).val < 5250000 := (i 0).isLt
  have hi1 : (i 1).val < 16 := (i 1).isLt
  have hN : cfg1.N = 525 := N_1
  refine ⟨⟨(i 0).val / 10000, by rw [hN]; omega⟩, flush1_2 _, ?_⟩
  rw [mem_blk]
  obtain ⟨-, -, -, -, e4, e5⟩ := idx_facts ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 16 ≤ (i 1).val ∧ (i 1).val < win1_2.index _ (1 : Fin 2) * 16 + 16
    rw [e5]; omega

/-- The array the region leaves. -/
theorem final (c : Dev nD) : (dat1 V c).arrAt 2 cfg1.N = RowOps.scaleRows (V c main_v38) (V c main_v30) :=
  (dat1 V c).arrAt_eq_of_cover 2 _ (fun t _ => flushed_eq V c t) cover

end Cert.KernelIdeal.Scale16

end
-- ==== Proof.RegionBiasRelu.lean ====
/-
  The first layer's bias and activation: the bias row (sixteen entries) added to every node's aggregated feature row,
  then every entry cut off below at zero. The region walks the 250 000 node rows in 50 bands of 5 000; the bias row is
  one block, the same at every band. So the array it leaves is the whole aggregated array with the bias row added to
  every row and cut off at zero: each band is the restriction of that one function, and the bands cover every row.
-/
import proofs.«103907_j89455578841822_2_alg».proof.Proof.Gen.KernelIdeal.Frame
import proofs.«103907_j89455578841822_2_alg».proof.Proof.LibRowOps
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.BiasRelu

open Cert.KernelIdeal Cert.KernelIdeal.Gen Idealize.ShloMosaic.ValueIdx Cert

variable (V : (c : Dev nD) → (b : Ref sig .tc) → Buf (Elt Ideal) ((c : Thread nD τ).loc b))

theorem hz : (![0, 0] : Fin 2 → Nat) = fun _ => 0 := funext fun a => by fin_cases a <;> rfl

/-- One band's result: the bias row added to every row of the loaded band, cut off below at zero. -/
theorem pay_eq (x0 : Vec Ideal S5000x16 .f32) (x1 : Vec Ideal S1x16 .f32) : k2_pay1 x0 x1 = RowOps.reluRow x0 x1 := by
  unfold k2_pay1
  simp only [shapeCast_self]
  rw [RowOps.addf_broadcastTo_row]
  exact RowOps.maximumf_splatZero x0 x1

/-- Where each window's block sits at band t: the row bands start at row 5000·t, column 0; the second operand is one block, the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What band t writes back is band t of the whole-array function of the two operand arrays as the region finds them. -/
theorem flushed_eq (c : Dev nD) (t : Fin cfg2.N) :
    (dat2 V c).flushed 2 t = ((cfg2.win 2).blk t).view.read (Elt Ideal) (RowOps.reluRow (V c main_v42) (V c main_v43)) := by
  show (cfg2.win 2).cut (grid2.coords t) ((dat2 V c).after 2 t) = _
  rw [after2_2]
  unfold out2_2
  rw [View.canon_unit_zero hz]
  simp only [View.ld_unit_zero (S := S5000x16) hz, View.ld_unit_zero (S := S1x16) hz]
  rw [pay_eq]
  obtain ⟨e0, e1, e2, e3, e4, e5⟩ := idx_facts t
  funext j
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * (j 1).val = win2_2.index t (1 : Fin 2) * 16 + 1 * (j 1).val; omega
  have h1 : ((cfg2.win 1).blk t).view.emb (RowOps.row0 j) = RowOps.row0 (((cfg2.win 2).blk t).view.emb j) := by
    funext a; apply Fin.ext
    match a with
    | ⟨0, _⟩ => show win2_1.index t (0 : Fin 2) * 1 + 1 * 0 = 0; omega
    | ⟨1, _⟩ => show win2_1.index t (1 : Fin 2) * 16 + 1 * (j 1).val = win2_2.index t (1 : Fin 2) * 16 + 1 * (j 1).val; omega
  have key : ∀ (A : S250000x16.Idx → EReal) (B : S1x16.Idx → EReal),
      RowOps.reluRow (A := 5000) (B := 16) (fun y => A (((cfg2.win 0).blk t).view.emb y)) (fun y => B (((cfg2.win 1).blk t).view.emb y)) j
        = RowOps.reluRow A B (((cfg2.win 2).blk t).view.emb j) := by
    intro A B
    show max (A (((cfg2.win 0).blk t).view.emb j) + B (((cfg2.win 1).blk t).view.emb (RowOps.row0 j))) (Ideal.ofBits .f32 0x00000000#32) = max (A (((cfg2.win 2).blk t).view.emb j) + B (RowOps.row0 (((cfg2.win 2).blk t).view.emb j))) (Ideal.ofBits .f32 0x00000000#32)
    rw [h0, h1]
  exact key (V c main_v42) (V c main_v43)

/-- An index of the output array lies in band t exactly when each coordinate lies in the band's range on its axis. -/
theorem mem_blk (t : Fin cfg2.N) (i : S250000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v44).slice (win2_2.rect t)).set ↔ _
  rw [View.set_slice_whole, Rect.mem_set_unit]
  exact Iff.rfl

/-- Every row is in some band: row r is in band r / 5000. -/
theorem cover (i : S250000x16.Idx) :
    ∃ t : Fin cfg2.N, (cfg2.win 2).flush t = true ∧ i ∈ ((cfg2.win 2).blk t).view.set := by
  have hi0 : (i 0).val < 250000 := (i 0).isLt
  have hi1 : (i 1).val < 16 := (i 1).isLt
  have hN : cfg2.N = 50 := N_2
  refine ⟨⟨(i 0).val / 5000, by rw [hN]; omega⟩, flush2_2 _, ?_⟩
  rw [mem_blk]
  obtain ⟨-, -, -, -, e4, e5⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 16 ≤ (i 1).val ∧ (i 1).val < win2_2.index _ (1 : Fin 2) * 16 + 16
    rw [e5]; omega

/-- The array the region leaves. -/
theorem final (c : Dev nD) : (dat2 V c).arrAt 2 cfg2.N = RowOps.reluRow (V c main_v42) (V c main_v43) :=
  (dat2 V c).arrAt_eq_of_cover 2 _ (fun t _ => flushed_eq V c t) cover

end Cert.KernelIdeal.BiasRelu

end
-- ==== Proof.RegionLin2.lean ====
/-
  The second layer's dense projection: the hidden features (sixteen columns) times the second weight matrix (16 × 1).
  The region walks the 250 000 node rows in 50 bands of 5 000; in band t the matrix unit multiplies the band of hidden
  features by the whole weight matrix into a zero accumulator (the operands' change of float format is the identity on
  extended reals). Entry (r, 0) of a band's product depends on row r of the band only, so the array the region leaves
  is the product of the whole hidden array by the weight matrix.
-/
import proofs.«103907_j89455578841822_2_alg».proof.Proof.Gen.KernelIdeal.Frame
import proofs.«103907_j89455578841822_2_alg».proof.Proof.LibRowOps
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Lin2

open Cert.KernelIdeal Cert.KernelIdeal.Gen Idealize.ShloMosaic.ValueIdx Cert

variable (V : (c : Dev nD) → (b : Ref sig .tc) → Buf (Elt Ideal) ((c : Thread nD τ).loc b))

theorem hz : (![0, 0] : Fin 2 → Nat) = fun _ => 0 := funext fun a => by fin_cases a <;> rfl

/-- One band's result: the band of hidden features times the weight matrix. -/
theorem pay_eq (x0 : Vec Ideal S5000x16 .f32) (x1 : Vec Ideal S16x1 .f32) : k3_pay1 x0 x1 = RowOps.matProd x0 x1 := by
  unfold k3_pay1
  simp only [shapeCast_self]
  refine RowOps.matmul_eq_matProd dot_S5000x16_S16x1_S5000x1_1_0_0_1_n_n rfl rfl
    (fun i q => by
      unfold DotDims.lhsIdx
      rw [dif_neg (show ¬(0 : Fin 2) ∈ dot_S5000x16_S16x1_S5000x1_1_0_0_1_n_n.lhsBatch by decide), dif_pos (show (0 : Fin 2) ∈ dot_S5000x16_S16x1_S5000x1_1_0_0_1_n_n.lhsNonContracting by decide)]
      rfl)
    (fun i q => dot_S5000x16_S16x1_S5000x1_1_0_0_1_n_n.lhsIdx_val_of_single rfl i q)
    (fun i q => dot_S5000x16_S16x1_S5000x1_1_0_0_1_n_n.rhsIdx_val_of_single rfl i q)
    (fun i q => by
      unfold DotDims.rhsIdx
      rw [dif_neg (show ¬(1 : Fin 2) ∈ dot_S5000x16_S16x1_S5000x1_1_0_0_1_n_n.rhsBatch by decide), dif_pos (show (1 : Fin 2) ∈ dot_S5000x16_S16x1_S5000x1_1_0_0_1_n_n.rhsNonContracting by decide)]
      rfl)
    none _ _

/-- Where each window's block sits at band t: the row bands start at row 5000·t, column 0; the second operand is one block, the whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What band t writes back is band t of the whole-array function of the two operand arrays as the region finds them. -/
theorem flushed_eq (c : Dev nD) (t : Fin cfg3.N) :
    (dat3 V c).flushed 2 t = ((cfg3.win 2).blk t).view.read (Elt Ideal) (RowOps.matProd (V c main_v44) (V c main_arg4)) := by
  show (cfg3.win 2).cut (grid3.coords t) ((dat3 V c).after 2 t) = _
  rw [after3_2]
  unfold out3_2
  rw [View.canon_unit_zero hz]
  simp only [View.ld_unit_zero (S := S5000x16) hz, View.ld_unit_zero (S := S16x1) hz]
  rw [pay_eq]
  obtain ⟨e0, e1, e2, e3, e4, e5⟩ := idx_facts t
  funext j
  have hj0 : (j 0).val < 5000 := (j 0).isLt
  have hj1 : (j 1).val < 1 := (j 1).isLt
  have hl : ∀ k : Fin 16, ((cfg3.win 0).blk t).view.emb (ix2 (⟨(j 0).val, hj0⟩ : Fin 5000) k)
      = ix2 (⟨((((cfg3.win 2).blk t).view.emb j) 0).val, idx2_lt0 _⟩ : Fin 250000) k := fun k => by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 16 + 1 * k.val = k.val; omega
  have hr : ∀ k : Fin 16, ((cfg3.win 1).blk t).view.emb (ix2 k (⟨(j 1).val, hj1⟩ : Fin 1))
      = ix2 k (⟨((((cfg3.win 2).blk t).view.emb j) 1).val, idx2_lt1 _⟩ : Fin 1) := fun k => by
    funext a; apply Fin.ext
    match a with
    | ⟨0, _⟩ => show win3_1.index t (0 : Fin 2) * 16 + 1 * k.val = k.val; omega
    | ⟨1, _⟩ => show win3_1.index t (1 : Fin 2) * 1 + 1 * (j 1).val = win3_2.index t (1 : Fin 2) * 1 + 1 * (j 1).val; omega
  have key : ∀ (A : S250000x16.Idx → EReal) (B : S16x1.Idx → EReal),
      RowOps.matProd (A := 5000) (K := 16) (B := 1) (fun y => A (((cfg3.win 0).blk t).view.emb y)) (fun y => B (((cfg3.win 1).blk t).view.emb y)) j
        = RowOps.matProd A B (((cfg3.win 2).blk t).view.emb j) := by
    intro A B
    show (∑ k : Fin 16, A (((cfg3.win 0).blk t).view.emb (ix2 (⟨(j 0).val, hj0⟩ : Fin 5000) k)) * B (((cfg3.win 1).blk t).view.emb (ix2 k (⟨(j 1).val, hj1⟩ : Fin 1))))
      = ∑ k : Fin 16, A (ix2 (⟨((((cfg3.win 2).blk t).view.emb j) 0).val, idx2_lt0 _⟩ : Fin 250000) k) * B (ix2 k (⟨((((cfg3.win 2).blk t).view.emb j) 1).val, idx2_lt1 _⟩ : Fin 1))
    exact Finset.sum_congr rfl fun k _ => by rw [hl k, hr k]
  exact key (V c main_v44) (V c main_arg4)

/-- An index of the output array lies in band t exactly when each coordinate lies in the band's range on its axis. -/
theorem mem_blk (t : Fin cfg3.N) (i : S250000x1.Idx) :
    i ∈ ((cfg3.win 2).blk t).view.set ↔ ∀ a : Fin 2, win3_2.index t a * S5000x1.size a ≤ (i a).val
      ∧ (i a).val < win3_2.index t a * S5000x1.size a + S5000x1.size a := by
  show i ∈ ((View.whole main_v45).slice (win3_2.rect t)).set ↔ _
  rw [View.set_slice_whole, Rect.mem_set_unit]
  exact Iff.rfl

/-- Every row is in some band: row r is in band r / 5000. -/
theorem cover (i : S250000x1.Idx) :
    ∃ t : Fin cfg3.N, (cfg3.win 2).flush t = true ∧ i ∈ ((cfg3.win 2).blk t).view.set := by
  have hi0 : (i 0).val < 250000 := (i 0).isLt
  have hi1 : (i 1).val < 1 := (i 1).isLt
  have hN : cfg3.N = 50 := N_3
  refine ⟨⟨(i 0).val / 5000, by rw [hN]; omega⟩, flush3_2 _, ?_⟩
  rw [mem_blk]
  obtain ⟨-, -, -, -, e4, e5⟩ := idx_facts ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 1 ≤ (i 1).val ∧ (i 1).val < win3_2.index _ (1 : Fin 2) * 1 + 1
    rw [e5]; omega

/-- The array the region leaves. -/
theorem final (c : Dev nD) : (dat3 V c).arrAt 2 cfg3.N = RowOps.matProd (V c main_v44) (V c main_arg4) :=
  (dat3 V c).arrAt_eq_of_cover 2 _ (fun t _ => flushed_eq V c t) cover

end Cert.KernelIdeal.Lin2

end
-- ==== Proof.RegionScale1.lean ====
/-
  The second layer's message scaling: every edge's gathered feature (one column) times that edge's normalisation
  coefficient. The region walks the 5 250 000 edge rows in 525 bands of 10 000; in band t it multiplies the band of
  the gathered column by the same band of the coefficient column, entry by entry. So the array it leaves is the
  entrywise product of the two whole columns: each band is the restriction of that one product, and the bands
  cover every row (row r lies in band r / 10000).
-/
import proofs.«103907_j89455578841822_2_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Scale1

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The entrywise product of two columns. -/
abbrev prod (g n : S5250000x1.Idx → EReal) : S5250000x1.Idx → EReal := mulf (F := Ideal) (s := S5250000x1) (φ := .f32) g n

/-- One band's result: the entrywise product of the two loaded bands (the identity casts dropped). -/
theorem pay_eq (x0 x1 : Vec Ideal S10000x1 .f32) : k4_pay1 x0 x1 = mulf x0 x1 := by
  unfold k4_pay1
  simp only [shapeCast_self]

/-- All three windows move together: band t of each column starts at row 10000·t, column 0. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val ∧ win4_2.index t (1 : Fin 2) = 0 :=
  (by decide +kernel : ∀ t : Fin grid4.N, _)

/-- What band t writes back is band t of the product of the two whole columns as the region finds them. -/
theorem flushed_eq (c : Dev nD) (t : Fin cfg4.N) :
    (dat4 V c).flushed 2 t = ((cfg4.win 2).blk t).view.read (Elt Ideal)
      (prod (V c main_v52) (V c main_v30)) := by
  show (cfg4.win 2).cut (grid4.coords t) ((dat4 V c).after 2 t) = _
  rw [after4_2]
  unfold out4_2
  rw [View.canon_unit_zero hz]
  simp only [View.ld_unit_zero (S := S10000x1) hz]
  rw [pay_eq]
  obtain ⟨e0, e1, e2, e3, e4, e5⟩ := idx_facts t
  funext j
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 1 + 1 * (j 1).val = win4_2.index t (1 : Fin 2) * 1 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * (j 1).val = win4_2.index t (1 : Fin 2) * 1 + 1 * (j 1).val; omega
  have key : ∀ (A B : S5250000x1.Idx → EReal),
      mulf (F := Ideal) (s := S10000x1) (φ := .f32) (fun y => A (((cfg4.win 0).blk t).view.emb y)) (fun y => B (((cfg4.win 1).blk t).view.emb y)) j
        = prod A B (((cfg4.win 2).blk t).view.emb j) := by
    intro A B
    show A (((cfg4.win 0).blk t).view.emb j) * B (((cfg4.win 1).blk t).view.emb j)
      = A (((cfg4.win 2).blk t).view.emb j) * B (((cfg4.win 2).blk t).view.emb j)
    rw [h0, h1]
  exact key (V c main_v52) (V c main_v30)

/-- A row index lies in band t exactly when each coordinate lies in the band's range on its axis. -/
theorem mem_blk (t : Fin cfg4.N) (i : S5250000x1.Idx) :
    i ∈ ((cfg4.win 2).blk t).view.set ↔ ∀ a : Fin 2, win4_2.index t a * S10000x1.size a ≤ (i a).val
      ∧ (i a).val < win4_2.index t a * S10000x1.size a + S10000x1.size a := by
  show i ∈ ((View.whole main_v53).slice (win4_2.rect t)).set ↔ _
  rw [View.set_slice_whole, Rect.mem_set_unit]
  exact Iff.rfl

/-- Every row is in some band: row r is in band r / 10000. -/
theorem cover (i : S5250000x1.Idx) :
    ∃ t : Fin cfg4.N, (cfg4.win 2).flush t = true ∧ i ∈ ((cfg4.win 2).blk t).view.set := by
  have hi0 : (i 0).val < 5250000 := (i 0).isLt
  have hi1 : (i 1).val < 1 := (i 1).isLt
  have hN : cfg4.N = 525 := N_4
  refine ⟨⟨(i 0).val / 10000, by rw [hN]; omega⟩, flush4_2 _, ?_⟩
  rw [mem_blk]
  obtain ⟨-, -, -, -, e4, e5⟩ := idx_facts ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 1 ≤ (i 1).val ∧ (i 1).val < win4_2.index _ (1 : Fin 2) * 1 + 1
    rw [e5]; omega

/-- The array the region leaves: the entrywise product of the gathered column and the coefficient column. -/
theorem final (c : Dev nD) :
    (dat4 V c).arrAt 2 cfg4.N = prod (V c main_v52) (V c main_v30) :=
  (dat4 V c).arrAt_eq_of_cover 2 _ (fun t _ => flushed_eq V c t) cover

end Cert.KernelIdeal.Scale1

end
-- ==== Proof.RegionBias1.lean ====
/-
  The second layer's bias: the one-entry bias added to every node's aggregated feature (one column). The region walks
  the 250 000 node rows in 50 bands of 5 000; the bias is one block, the same at every band. So the array it leaves is
  the whole aggregated column with the bias added to every row: each band is the restriction of that one function, and
  the bands cover every row.
-/
import proofs.«103907_j89455578841822_2_alg».proof.Proof.Gen.KernelIdeal.Frame
import proofs.«103907_j89455578841822_2_alg».proof.Proof.LibRowOps
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Bias1

open Cert.KernelIdeal Cert.KernelIdeal.Gen Idealize.ShloMosaic.ValueIdx Cert

variable (V : (c : Dev nD) → (b : Ref sig .tc) → Buf (Elt Ideal) ((c : Thread nD τ).loc b))

theorem hz : (![0, 0] : Fin 2 → Nat) = fun _ => 0 := funext fun a => by fin_cases a <;> rfl

/-- One band's result: the bias added to every row of the loaded band. -/
theorem pay_eq (x0 : Vec Ideal S5000x1 .f32) (x1 : Vec Ideal S1x1 .f32) : k5_pay1 x0 x1 = RowOps.addRow x0 x1 := by
  unfold k5_pay1
  simp only [shapeCast_self]
  exact RowOps.addf_broadcastTo_row _ x0 x1

/-- Where each window's block sits at band t: the row bands start at row 5000·t, column 0; the second operand is one block, the whole array. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What band t writes back is band t of the whole-array function of the two operand arrays as the region finds them. -/
theorem flushed_eq (c : Dev nD) (t : Fin cfg5.N) :
    (dat5 V c).flushed 2 t = ((cfg5.win 2).blk t).view.read (Elt Ideal) (RowOps.addRow (V c main_v56) (V c main_v57)) := by
  show (cfg5.win 2).cut (grid5.coords t) ((dat5 V c).after 2 t) = _
  rw [after5_2]
  unfold out5_2
  rw [View.canon_unit_zero hz]
  simp only [View.ld_unit_zero (S := S5000x1) hz, View.ld_unit_zero (S := S1x1) hz]
  rw [pay_eq]
  obtain ⟨e0, e1, e2, e3, e4, e5⟩ := idx_facts t
  funext j
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 1 + 1 * (j 1).val = win5_2.index t (1 : Fin 2) * 1 + 1 * (j 1).val; omega
  have h1 : ((cfg5.win 1).blk t).view.emb (RowOps.row0 j) = RowOps.row0 (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 1 + 1 * (j 1).val = win5_2.index t (1 : Fin 2) * 1 + 1 * (j 1).val; omega
  have key : ∀ (A : S250000x1.Idx → EReal) (B : S1x1.Idx → EReal),
      RowOps.addRow (A := 5000) (B := 1) (fun y => A (((cfg5.win 0).blk t).view.emb y)) (fun y => B (((cfg5.win 1).blk t).view.emb y)) j
        = RowOps.addRow A B (((cfg5.win 2).blk t).view.emb j) := by
    intro A B
    show A (((cfg5.win 0).blk t).view.emb j) + B (((cfg5.win 1).blk t).view.emb (RowOps.row0 j)) = A (((cfg5.win 2).blk t).view.emb j) + B (RowOps.row0 (((cfg5.win 2).blk t).view.emb j))
    rw [h0, h1]
  exact key (V c main_v56) (V c main_v57)

/-- An index of the output array lies in band t exactly when each coordinate lies in the band's range on its axis. -/
theorem mem_blk (t : Fin cfg5.N) (i : S250000x1.Idx) :
    i ∈ ((cfg5.win 2).blk t).view.set ↔ ∀ a : Fin 2, win5_2.index t a * S5000x1.size a ≤ (i a).val
      ∧ (i a).val < win5_2.index t a * S5000x1.size a + S5000x1.size a := by
  show i ∈ ((View.whole main_v58).slice (win5_2.rect t)).set ↔ _
  rw [View.set_slice_whole, Rect.mem_set_unit]
  exact Iff.rfl

/-- Every row is in some band: row r is in band r / 5000. -/
theorem cover (i : S250000x1.Idx) :
    ∃ t : Fin cfg5.N, (cfg5.win 2).flush t = true ∧ i ∈ ((cfg5.win 2).blk t).view.set := by
  have hi0 : (i 0).val < 250000 := (i 0).isLt
  have hi1 : (i 1).val < 1 := (i 1).isLt
  have hN : cfg5.N = 50 := N_5
  refine ⟨⟨(i 0).val / 5000, by rw [hN]; omega⟩, flush5_2 _, ?_⟩
  rw [mem_blk]
  obtain ⟨-, -, -, -, e4, e5⟩ := idx_facts ⟨(i 0).val / 5000, by rw [hN]; omega⟩
  intro a
  match a with
  | ⟨0, _⟩ =>
    show win5_2.index _ (0 : Fin 2) * 5000 ≤ (i 0).val ∧ (i 0).val < win5_2.index _ (0 : Fin 2) * 5000 + 5000
    rw [e4]; show (i 0).val / 5000 * 5000 ≤ (i 0).val ∧ (i 0).val < (i 0).val / 5000 * 5000 + 5000; omega
  | ⟨1, _⟩ =>
    show win5_2.index _ (1 : Fin 2) * 1 ≤ (i 1).val ∧ (i 1).val < win5_2.index _ (1 : Fin 2) * 1 + 1
    rw [e5]; omega

/-- The array the region leaves. -/
theorem final (c : Dev nD) : (dat5 V c).arrAt 2 cfg5.N = RowOps.addRow (V c main_v56) (V c main_v57) :=
  (dat5 V c).arrAt_eq_of_cover 2 _ (fun t _ => flushed_eq V c t) cover

end Cert.KernelIdeal.Bias1

end
-- ==== Proof.KernelValue.lean ====
/-
  What the idealized kernel computes, as one term of its six arguments.

  The program is a two-layer graph convolution. From the edge list it forms, on the host, the source and destination
  rows with the 250 000 self loops appended (src, dst), the degree of every node (a scatter-add of ones at dst), its
  inverse square root where positive (dinv), and every edge's coefficient dinv[src] · dinv[dst] (norm). A layer is:
  a dense projection of the node features (a device region), a gather of the projected rows at src (host), every
  gathered row scaled by its edge's coefficient (a device region), a scatter-add of the scaled rows at dst (host), and
  the bias added to every row (a device region; the first layer also cuts off at zero).

  Each device region leaves in its output array one whole-array function of its operand arrays (the six region modules),
  each host stretch applies its operations, and a buffer no segment writes keeps its contents; composing these from the
  launch memory to the last segment boundary gives the result buffer as `outT` of the launch contents of the arguments.
-/
import proofs.«103907_j89455578841822_2_alg».proof.Proof.Gen.KernelIdeal.Frame
import proofs.«103907_j89455578841822_2_alg».proof.Proof.LibRowOps
import proofs.«103907_j89455578841822_2_alg».proof.Proof.RegionLin1
import proofs.«103907_j89455578841822_2_alg».proof.Proof.RegionScale16
import proofs.«103907_j89455578841822_2_alg».proof.Proof.RegionBiasRelu
import proofs.«103907_j89455578841822_2_alg».proof.Proof.RegionLin2
import proofs.«103907_j89455578841822_2_alg».proof.Proof.RegionScale1
import proofs.«103907_j89455578841822_2_alg».proof.Proof.RegionBias1
import Idealize.ShloMosaic.Lib.StableHlo.Run

noncomputable section

namespace Cert.KernelIdeal.Hand

open Cert Cert.KernelIdeal Cert.KernelIdeal.Gen
open Idealize.ShloMosaic Idealize.ShloMosaic.TcCoe Idealize.SL.Sem Idealize.ShloMosaic.StableHlo

/-! ## The host pieces, as functions of the edge list -/

/-- The source row of the edge list with the self loops appended. -/
def srcT (e : IVec S2x5000000 32) : IVec S5250000 32 :=
  concatenate S5250000 0 [⟨S5000000, (shapeCast _ (extractStridedSlice S1x5000000 ![0, 0] e slices_S2x5000000_S1x5000000_0_0) shapeCasts_S1x5000000_S5000000)⟩, ⟨S250000, (iotaInDim S250000 32 0)⟩] concatenates_S5000000_S250000_S5250000_d0

/-- The destination row of the edge list with the self loops appended. -/
def dstT (e : IVec S2x5000000 32) : IVec S5250000 32 :=
  concatenate S5250000 0 [⟨S5000000, (shapeCast _ (extractStridedSlice S1x5000000 ![1, 0] e slices_S2x5000000_S1x5000000_1_0) shapeCasts_S1x5000000_S5000000)⟩, ⟨S250000, (iotaInDim S250000 32 0)⟩] concatenates_S5000000_S250000_S5250000_d0

/-- Node numbers as a gather's row numbers: a negative number counted from the end, laid out as a column. -/
def wrapT (v : IVec S5250000 32) : IVec S5250000x1 32 :=
  (broadcastInDim S5250000x1 ![0] bcast_S5250000_S5250000x1_0 (select (cmpi .slt v (broadcastInDim S5250000 ![] bcast_S_S5250000 (constantI S_ 32 0#32))) (addi v (broadcastInDim S5250000 ![] bcast_S_S5250000 (constantI S_ 32 250000#32))) v))

/-- Node numbers as a scatter's row numbers, laid out as a column. -/
def colT (v : IVec S5250000 32) : IVec S5250000x1 32 :=
  broadcastInDim S5250000x1 ![0] bcast_S5250000_S5250000x1_0 v

/-- Every node's degree: ones summed at the destination of every edge and self loop. -/
def degT (e : IVec S2x5000000 32) : FVec Ideal S250000 .f32 :=
  Host.scatterAdd (F := Ideal) scatter_S250000_S5250000x1_S5250000_n_0_0_1 (broadcastInDim S250000 ![] bcast_S_S250000 (constant (F := Ideal) S_ .f32 0x00000000#32)) (colT (dstT e)) (broadcastInDim S5250000 ![] bcast_S_S5250000 (constant (F := Ideal) S_ .f32 0x3F800000#32))

/-- The inverse square root of the degree where it is positive, zero elsewhere. -/
def dinvT (e : IVec S2x5000000 32) : FVec Ideal S250000 .f32 :=
  select (cmpf (F := Ideal) .ogt (degT e) (broadcastInDim S250000 ![] bcast_S_S250000 (constant (F := Ideal) S_ .f32 0x00000000#32))) (Host.rsqrt (F := Ideal) (degT e)) (broadcastInDim S250000 ![] bcast_S_S250000 (id (constant (F := Ideal) S_ .f32 0x00000000#32)))

/-- Every edge's coefficient, dinv[src] · dinv[dst], as a column. -/
def normT (e : IVec S2x5000000 32) : FVec Ideal S5250000x1 .f32 :=
  shapeCast S5250000x1 (mulf (F := Ideal) (Host.gather gather_S250000_S5250000x1_S5250000_n_0_n_n_0_1_1 (dinvT e) (wrapT (srcT e))) (Host.gather gather_S250000_S5250000x1_S5250000_n_0_n_n_0_1_1 (dinvT e) (wrapT (dstT e)))) shapeCasts_S5250000_S5250000x1

/-! ## The two layers -/

/-- The first layer's messages: the projected rows gathered at src, each scaled by its edge's coefficient. -/
def msg1T (x0 : FVec Ideal S250000x1 .f32) (e : IVec S2x5000000 32)
    (x2 : FVec Ideal S1x16 .f32) : FVec Ideal S5250000x16 .f32 :=
  RowOps.scaleRows (Host.gather gather_S250000x16_S5250000x1_S5250000x16_1_0_n_n_0_1_116 (RowOps.matProd x0 x2) (wrapT (srcT e))) (normT e)

/-- The hidden features: the messages summed at dst, the bias row added, cut off at zero. -/
def hidT (x0 : FVec Ideal S250000x1 .f32) (e : IVec S2x5000000 32)
    (x2 : FVec Ideal S1x16 .f32) (x3 : FVec Ideal S16 .f32) : FVec Ideal S250000x16 .f32 :=
  RowOps.reluRow (Host.scatterAdd (F := Ideal) scatter_S250000x16_S5250000x1_S5250000x16_1_0_0_1 (broadcastInDim S250000x16 ![] bcast_S_S250000x16 (constant (F := Ideal) S_ .f32 0x00000000#32)) (colT (dstT e)) (msg1T x0 e x2))
    (shapeCast S1x16 x3 shapeCasts_S16_S1x16)

/-- The second layer's messages. -/
def msg2T (x0 : FVec Ideal S250000x1 .f32) (e : IVec S2x5000000 32)
    (x2 : FVec Ideal S1x16 .f32) (x3 : FVec Ideal S16 .f32)
    (x4 : FVec Ideal S16x1 .f32) : FVec Ideal S5250000x1 .f32 :=
  Scale1.prod (Host.gather gather_S250000x1_S5250000x1_S5250000x1_1_0_n_n_0_1_11 (RowOps.matProd (hidT x0 e x2 x3) x4) (wrapT (srcT e))) (normT e)

/-- The result: the second layer's messages summed at dst, the bias added. -/
def outT (x0 : FVec Ideal S250000x1 .f32) (e : IVec S2x5000000 32)
    (x2 : FVec Ideal S1x16 .f32) (x3 : FVec Ideal S16 .f32)
    (x4 : FVec Ideal S16x1 .f32) (x5 : FVec Ideal S1 .f32) : FVec Ideal S250000x1 .f32 :=
  RowOps.addRow (Host.scatterAdd (F := Ideal) scatter_S250000x1_S5250000x1_S5250000x1_1_0_0_1 (broadcastInDim S250000x1 ![] bcast_S_S250000x1 (constant (F := Ideal) S_ .f32 0x00000000#32)) (colT (dstT e)) (msg2T x0 e x2 x3 x4))
    (shapeCast S1x1 x5 shapeCasts_S1_S1x1)

/-! ## A buffer no segment writes keeps its contents -/

variable (m : (ℓ : Loc nD τ sig) → Buf (Elt Ideal) ℓ) (ρ : Dev nD → PrngReg)

/-- No operation of the named host stretch writes the buffer in the goal. -/
local macro "host_skip " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem v3_at4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem v3_at9 (c : Dev nD) : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by host_skip hostOps2
    _ = W5 m ρ c (Proc.devRef .tc main_v3) := W6_of_ne m ρ c main_v3 (by decide)
    _ = W4 m ρ c (Proc.devRef .tc main_v3) := by host_skip hostOps1
    _ = W3 m ρ c (Proc.devRef .tc main_v3) := W4_of_ne m ρ c main_v3 (by decide)

theorem v6_at6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_skip hostOps1
    _ = W3 m ρ c (Proc.devRef .tc main_v6) := W4_of_ne m ρ c main_v6 (by decide)

theorem v6_at11 (c : Dev nD) : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by host_skip hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_skip hostOps2
    _ = W5 m ρ c (Proc.devRef .tc main_v6) := W6_of_ne m ρ c main_v6 (by decide)
    _ = W4 m ρ c (Proc.devRef .tc main_v6) := by host_skip hostOps1
    _ = W3 m ρ c (Proc.devRef .tc main_v6) := W4_of_ne m ρ c main_v6 (by decide)

theorem v30_at5 (c : Dev nD) : W5 m ρ c (Proc.devRef .tc main_v30) = W3 m ρ c (Proc.devRef .tc main_v30) :=
  calc W5 m ρ c (Proc.devRef .tc main_v30)
    _ = W4 m ρ c (Proc.devRef .tc main_v30) := by host_skip hostOps1
    _ = W3 m ρ c (Proc.devRef .tc main_v30) := W4_of_ne m ρ c main_v30 (by decide)

theorem v30_at10 (c : Dev nD) : W10 m ρ c (Proc.devRef .tc main_v30) = W3 m ρ c (Proc.devRef .tc main_v30) :=
  calc W10 m ρ c (Proc.devRef .tc main_v30)
    _ = W9 m ρ c (Proc.devRef .tc main_v30) := by host_skip hostOps4
    _ = W8 m ρ c (Proc.devRef .tc main_v30) := W9_of_ne m ρ c main_v30 (by decide)
    _ = W7 m ρ c (Proc.devRef .tc main_v30) := W8_of_ne m ρ c main_v30 (by decide)
    _ = W6 m ρ c (Proc.devRef .tc main_v30) := by host_skip hostOps2
    _ = W5 m ρ c (Proc.devRef .tc main_v30) := (W6_arr m ρ c 1).trans (((dat1 (V5 m ρ) c).arrAt_in 1 rfl _).trans (A_eq1 (V5 m ρ) c 1))
    _ = W4 m ρ c (Proc.devRef .tc main_v30) := by host_skip hostOps1
    _ = W3 m ρ c (Proc.devRef .tc main_v30) := W4_of_ne m ρ c main_v30 (by decide)

theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_skip hostOps0_2
    _ = W1 m ρ c (Proc.devRef .tc main_arg0) := by host_skip hostOps0_1
    _ = W0 m ρ c (Proc.devRef .tc main_arg0) := by host_skip hostOps0
    _ = m ((c : Thread nD τ).loc main_arg0) := rfl

theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by host_skip hostOps0_2
    _ = W1 m ρ c (Proc.devRef .tc main_arg2) := by host_skip hostOps0_1
    _ = W0 m ρ c (Proc.devRef .tc main_arg2) := by host_skip hostOps0
    _ = m ((c : Thread nD τ).loc main_arg2) := rfl

theorem arg3_at6 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by host_skip hostOps1
    _ = W3 m ρ c (Proc.devRef .tc main_arg3) := W4_of_ne m ρ c main_arg3 (by decide)
    _ = W2 m ρ c (Proc.devRef .tc main_arg3) := by host_skip hostOps0_2
    _ = W1 m ρ c (Proc.devRef .tc main_arg3) := by host_skip hostOps0_1
    _ = W0 m ρ c (Proc.devRef .tc main_arg3) := by host_skip hostOps0
    _ = m ((c : Thread nD τ).loc main_arg3) := rfl

theorem arg4_at8 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by host_skip hostOps2
    _ = W5 m ρ c (Proc.devRef .tc main_arg4) := W6_of_ne m ρ c main_arg4 (by decide)
    _ = W4 m ρ c (Proc.devRef .tc main_arg4) := by host_skip hostOps1
    _ = W3 m ρ c (Proc.devRef .tc main_arg4) := W4_of_ne m ρ c main_arg4 (by decide)
    _ = W2 m ρ c (Proc.devRef .tc main_arg4) := by host_skip hostOps0_2
    _ = W1 m ρ c (Proc.devRef .tc main_arg4) := by host_skip hostOps0_1
    _ = W0 m ρ c (Proc.devRef .tc main_arg4) := by host_skip hostOps0
    _ = m ((c : Thread nD τ).loc main_arg4) := rfl

theorem arg5_at11 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := by host_skip hostOps4
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by host_skip hostOps2
    _ = W5 m ρ c (Proc.devRef .tc main_arg5) := W6_of_ne m ρ c main_arg5 (by decide)
    _ = W4 m ρ c (Proc.devRef .tc main_arg5) := by host_skip hostOps1
    _ = W3 m ρ c (Proc.devRef .tc main_arg5) := W4_of_ne m ρ c main_arg5 (by decide)
    _ = W2 m ρ c (Proc.devRef .tc main_arg5) := by host_skip hostOps0_2
    _ = W1 m ρ c (Proc.devRef .tc main_arg5) := by host_skip hostOps0_1
    _ = W0 m ρ c (Proc.devRef .tc main_arg5) := by host_skip hostOps0
    _ = m ((c : Thread nD τ).loc main_arg5) := rfl

/-! ## The host stretches -/

/-- The first stretch, from any contents: the source row. -/
theorem src_of (X : Valuation τ sig (Elt Ideal)) :
    StableHlo.after hostOps0 X (Proc.devRef .tc main_v3) = srcT (X (Proc.devRef .tc main_arg1)) := by
  dsimp only [hostOps0]
  after_results_simp
  rfl

/-- The first stretch, from any contents: the destination row. -/
theorem dst_of (X : Valuation τ sig (Elt Ideal)) :
    StableHlo.after hostOps0 X (Proc.devRef .tc main_v6) = dstT (X (Proc.devRef .tc main_arg1)) := by
  dsimp only [hostOps0]
  after_results_simp
  rfl

/-- The first stretch, from any contents: where the degree is positive. -/
theorem pos_of (X : Valuation τ sig (Elt Ideal)) :
    StableHlo.after hostOps0 X (Proc.devRef .tc main_v12)
      = (cmpf (F := Ideal) .ogt (degT (X (Proc.devRef .tc main_arg1))) (broadcastInDim S250000 ![] bcast_S_S250000 (constant (F := Ideal) S_ .f32 0x00000000#32)) : IVec S250000 1) := by
  dsimp only [hostOps0]
  after_results_simp
  rfl

/-- The first stretch, from any contents: the inverse square root of the degree. -/
theorem rsqrt_of (X : Valuation τ sig (Elt Ideal)) :
    StableHlo.after hostOps0 X (Proc.devRef .tc main_v13) = (Host.rsqrt (F := Ideal) (degT (X (Proc.devRef .tc main_arg1))) : FVec Ideal S250000 .f32) := by
  dsimp only [hostOps0]
  after_results_simp
  rfl

/-- The first stretch, from any contents: the zero the selection falls back to. -/
theorem zero_of (X : Valuation τ sig (Elt Ideal)) :
    StableHlo.after hostOps0 X (Proc.devRef .tc main_cst_2) = (constant (F := Ideal) S_ .f32 0x00000000#32 : FVec Ideal S_ .f32) := by
  dsimp only [hostOps0]
  after_results_simp

/-- The selection, from any contents. -/
theorem where_of (X : Valuation τ sig (Elt Ideal)) :
    StableHlo.after hostOps0_1 X (Proc.devRef .tc main_v14)
      = (select (X (Proc.devRef .tc main_v12) : IVec S250000 1) (X (Proc.devRef .tc main_v13) : FVec Ideal S250000 .f32)
          (broadcastInDim S250000 ![] bcast_S_S250000 (id (X (Proc.devRef .tc main_cst_2) : FVec Ideal S_ .f32))) : FVec Ideal S250000 .f32) := by
  dsimp only [hostOps0_1]
  after_results_simp
  rfl

/-- The third stretch, from any contents: the coefficient column. -/
theorem norm_of (X : Valuation τ sig (Elt Ideal)) :
    StableHlo.after hostOps0_2 X (Proc.devRef .tc main_v30)
      = (shapeCast S5250000x1 (mulf (F := Ideal)
          (Host.gather gather_S250000_S5250000x1_S5250000_n_0_n_n_0_1_1 (X (Proc.devRef .tc main_v14) : FVec Ideal S250000 .f32) (wrapT (X (Proc.devRef .tc main_v3))))
          (Host.gather gather_S250000_S5250000x1_S5250000_n_0_n_n_0_1_1 (X (Proc.devRef .tc main_v14) : FVec Ideal S250000 .f32) (wrapT (X (Proc.devRef .tc main_v6)))))
          shapeCasts_S5250000_S5250000x1 : FVec Ideal S5250000x1 .f32) := by
  dsimp only [hostOps0_2]
  after_results_simp
  rfl

theorem arg1_at0 (c : Dev nD) : W0 m ρ c (Proc.devRef .tc main_arg1) = m ((c : Thread nD τ).loc main_arg1) := rfl

theorem src_at2 (c : Dev nD) : W2 m ρ c (Proc.devRef .tc main_v3) = srcT (m ((c : Thread nD τ).loc main_arg1)) :=
  calc W2 m ρ c (Proc.devRef .tc main_v3)
    _ = W1 m ρ c (Proc.devRef .tc main_v3) := by host_skip hostOps0_1
    _ = srcT (m ((c : Thread nD τ).loc main_arg1)) := src_of (W0 m ρ c)

theorem dst_at2 (c : Dev nD) : W2 m ρ c (Proc.devRef .tc main_v6) = dstT (m ((c : Thread nD τ).loc main_arg1)) :=
  calc W2 m ρ c (Proc.devRef .tc main_v6)
    _ = W1 m ρ c (Proc.devRef .tc main_v6) := by host_skip hostOps0_1
    _ = dstT (m ((c : Thread nD τ).loc main_arg1)) := dst_of (W0 m ρ c)

theorem dinv_at2 (c : Dev nD) : W2 m ρ c (Proc.devRef .tc main_v14) = dinvT (m ((c : Thread nD τ).loc main_arg1)) := by
  refine (where_of (W1 m ρ c)).trans ?_
  show (select (StableHlo.after hostOps0 (W0 m ρ c) (Proc.devRef .tc main_v12) : IVec S250000 1) (StableHlo.after hostOps0 (W0 m ρ c) (Proc.devRef .tc main_v13) : FVec Ideal S250000 .f32)
      (broadcastInDim S250000 ![] bcast_S_S250000 (id (StableHlo.after hostOps0 (W0 m ρ c) (Proc.devRef .tc main_cst_2) : FVec Ideal S_ .f32))) : FVec Ideal S250000 .f32) = _
  rw [pos_of, rsqrt_of, zero_of]
  rfl

theorem src_at3 (c : Dev nD) : W3 m ρ c (Proc.devRef .tc main_v3) = srcT (m ((c : Thread nD τ).loc main_arg1)) :=
  calc W3 m ρ c (Proc.devRef .tc main_v3)
    _ = W2 m ρ c (Proc.devRef .tc main_v3) := by host_skip hostOps0_2
    _ = srcT (m ((c : Thread nD τ).loc main_arg1)) := src_at2 m ρ c

theorem dst_at3 (c : Dev nD) : W3 m ρ c (Proc.devRef .tc main_v6) = dstT (m ((c : Thread nD τ).loc main_arg1)) :=
  calc W3 m ρ c (Proc.devRef .tc main_v6)
    _ = W2 m ρ c (Proc.devRef .tc main_v6) := by host_skip hostOps0_2
    _ = dstT (m ((c : Thread nD τ).loc main_arg1)) := dst_at2 m ρ c

theorem norm_at3 (c : Dev nD) : W3 m ρ c (Proc.devRef .tc main_v30) = normT (m ((c : Thread nD τ).loc main_arg1)) := by
  refine (norm_of (W2 m ρ c)).trans ?_
  rw [dinv_at2, src_at2, dst_at2]
  rfl

theorem gather1_at5 (c : Dev nD) : W5 m ρ c (Proc.devRef .tc main_v38)
    = (Host.gather gather_S250000x16_S5250000x1_S5250000x16_1_0_n_n_0_1_116 (W4 m ρ c (Proc.devRef .tc main_v31) : FVec Ideal S250000x16 .f32) (wrapT (W4 m ρ c (Proc.devRef .tc main_v3))) : FVec Ideal S5250000x16 .f32) := by
  show StableHlo.after hostOps1 (W4 m ρ c) (Proc.devRef .tc main_v38) = _
  dsimp only [hostOps1]
  after_results_simp
  rfl

theorem agg1_at7 (c : Dev nD) : W7 m ρ c (Proc.devRef .tc main_v42)
    = (Host.scatterAdd (F := Ideal) scatter_S250000x16_S5250000x1_S5250000x16_1_0_0_1 (broadcastInDim S250000x16 ![] bcast_S_S250000x16 (constant (F := Ideal) S_ .f32 0x00000000#32)) (colT (W6 m ρ c (Proc.devRef .tc main_v6))) (W6 m ρ c (Proc.devRef .tc main_v39) : FVec Ideal S5250000x16 .f32) : FVec Ideal S250000x16 .f32) := by
  show StableHlo.after hostOps2 (W6 m ρ c) (Proc.devRef .tc main_v42) = _
  dsimp only [hostOps2]
  after_results_simp
  rfl

theorem bias1_at7 (c : Dev nD) : W7 m ρ c (Proc.devRef .tc main_v43) = (shapeCast S1x16 (W6 m ρ c (Proc.devRef .tc main_arg3) : FVec Ideal S16 .f32) shapeCasts_S16_S1x16 : FVec Ideal S1x16 .f32) := by
  show StableHlo.after hostOps2 (W6 m ρ c) (Proc.devRef .tc main_v43) = _
  dsimp only [hostOps2]
  after_results_simp
  rfl

theorem gather2_at10 (c : Dev nD) : W10 m ρ c (Proc.devRef .tc main_v52)
    = (Host.gather gather_S250000x1_S5250000x1_S5250000x1_1_0_n_n_0_1_11 (W9 m ρ c (Proc.devRef .tc main_v45) : FVec Ideal S250000x1 .f32) (wrapT (W9 m ρ c (Proc.devRef .tc main_v3))) : FVec Ideal S5250000x1 .f32) := by
  show StableHlo.after hostOps4 (W9 m ρ c) (Proc.devRef .tc main_v52) = _
  dsimp only [hostOps4]
  after_results_simp
  rfl

theorem agg2_at12 (c : Dev nD) : W12 m ρ c (Proc.devRef .tc main_v56)
    = (Host.scatterAdd (F := Ideal) scatter_S250000x1_S5250000x1_S5250000x1_1_0_0_1 (broadcastInDim S250000x1 ![] bcast_S_S250000x1 (constant (F := Ideal) S_ .f32 0x00000000#32)) (colT (W11 m ρ c (Proc.devRef .tc main_v6))) (W11 m ρ c (Proc.devRef .tc main_v53) : FVec Ideal S5250000x1 .f32) : FVec Ideal S250000x1 .f32) := by
  show StableHlo.after hostOps5 (W11 m ρ c) (Proc.devRef .tc main_v56) = _
  dsimp only [hostOps5]
  after_results_simp
  rfl

theorem bias2_at12 (c : Dev nD) : W12 m ρ c (Proc.devRef .tc main_v57) = (shapeCast S1x1 (W11 m ρ c (Proc.devRef .tc main_arg5) : FVec Ideal S1 .f32) shapeCasts_S1_S1x1 : FVec Ideal S1x1 .f32) := by
  show StableHlo.after hostOps5 (W11 m ρ c) (Proc.devRef .tc main_v57) = _
  dsimp only [hostOps5]
  after_results_simp
  rfl

/-! ## The device regions, and the whole -/

theorem proj1_at4 (c : Dev nD) : W4 m ρ c (Proc.devRef .tc main_v31)
    = RowOps.matProd (m ((c : Thread nD τ).loc main_arg0)) (m ((c : Thread nD τ).loc main_arg2)) := by
  refine (W4_arr m ρ c 2).trans ((Lin1.final (V3 m ρ) c).trans ?_)
  show RowOps.matProd (W3 m ρ c (Proc.devRef .tc main_arg0)) (W3 m ρ c (Proc.devRef .tc main_arg2)) = _
  rw [arg0_at3, arg2_at3]

theorem msg1_at6 (c : Dev nD) : W6 m ρ c (Proc.devRef .tc main_v39)
    = msg1T (m ((c : Thread nD τ).loc main_arg0)) (m ((c : Thread nD τ).loc main_arg1)) (m ((c : Thread nD τ).loc main_arg2)) := by
  refine (W6_arr m ρ c 2).trans ((Scale16.final (V5 m ρ) c).trans ?_)
  show RowOps.scaleRows (W5 m ρ c (Proc.devRef .tc main_v38)) (W5 m ρ c (Proc.devRef .tc main_v30)) = _
  rw [gather1_at5, proj1_at4, v3_at4, src_at3, v30_at5, norm_at3]
  rfl

theorem hid_at8 (c : Dev nD) : W8 m ρ c (Proc.devRef .tc main_v44)
    = hidT (m ((c : Thread nD τ).loc main_arg0)) (m ((c : Thread nD τ).loc main_arg1)) (m ((c : Thread nD τ).loc main_arg2)) (m ((c : Thread nD τ).loc main_arg3)) := by
  refine (W8_arr m ρ c 2).trans ((BiasRelu.final (V7 m ρ) c).trans ?_)
  show RowOps.reluRow (W7 m ρ c (Proc.devRef .tc main_v42)) (W7 m ρ c (Proc.devRef .tc main_v43)) = _
  rw [agg1_at7, bias1_at7, msg1_at6, v6_at6, dst_at3, arg3_at6]
  rfl

theorem proj2_at9 (c : Dev nD) : W9 m ρ c (Proc.devRef .tc main_v45)
    = RowOps.matProd (hidT (m ((c : Thread nD τ).loc main_arg0)) (m ((c : Thread nD τ).loc main_arg1)) (m ((c : Thread nD τ).loc main_arg2)) (m ((c : Thread nD τ).loc main_arg3))) (m ((c : Thread nD τ).loc main_arg4)) := by
  refine (W9_arr m ρ c 2).trans ((Lin2.final (V8 m ρ) c).trans ?_)
  show RowOps.matProd (W8 m ρ c (Proc.devRef .tc main_v44)) (W8 m ρ c (Proc.devRef .tc main_arg4)) = _
  rw [hid_at8, arg4_at8]

theorem msg2_at11 (c : Dev nD) : W11 m ρ c (Proc.devRef .tc main_v53)
    = msg2T (m ((c : Thread nD τ).loc main_arg0)) (m ((c : Thread nD τ).loc main_arg1)) (m ((c : Thread nD τ).loc main_arg2)) (m ((c : Thread nD τ).loc main_arg3)) (m ((c : Thread nD τ).loc main_arg4)) := by
  refine (W11_arr m ρ c 2).trans ((Scale1.final (V10 m ρ) c).trans ?_)
  show Scale1.prod (W10 m ρ c (Proc.devRef .tc main_v52)) (W10 m ρ c (Proc.devRef .tc main_v30)) = _
  rw [gather2_at10, proj2_at9, v3_at9, src_at3, v30_at10, norm_at3]
  rfl

/-- The result buffer at the last segment boundary is `outT` of the arguments' launch contents. -/
theorem out_at13 (c : Dev nD) : W13 m ρ c (Proc.devRef .tc main_v58)
    = outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W13_arr m ρ c 2).trans ((Bias1.final (V12 m ρ) c).trans ?_)
  show RowOps.addRow (W12 m ρ c (Proc.devRef .tc main_v56)) (W12 m ρ c (Proc.devRef .tc main_v57)) = _
  rw [agg2_at12, bias2_at12, msg2_at11, v6_at11, dst_at3, arg5_at11]
  rfl

end Cert.KernelIdeal.Hand

end
-- ==== Proof.Bridge.lean ====
/-
  The kernel's term and the reference's term are one function of the arguments, on the extended reals.

  Both programs apply the same host operations to the edge list (src, dst, the degrees, their inverse square roots, the
  edge coefficients) and the same gathers and scatter-adds; they differ only in how each layer's three dense steps are
  spelt. The reference spells them on the host: `dot_general`; a product with the coefficient column broadcast over the
  feature columns (the column itself a broadcast of the coefficient vector along a new unit axis); a sum with the bias
  broadcast over the rows (the bias row itself a broadcast of the bias vector along a new unit axis); a maximum with the
  zero constant. The kernel's regions leave the matrix product, the rows scaled by the coefficient column (the
  coefficient vector cast to a column), the bias row added to every row (the bias vector cast to a row), and the cut-off
  at zero. Entry by entry these are the same: a cast of a vector to a column or a row is that vector broadcast along
  the new unit axis, a broadcast reads its operand at the kept coordinates, and `dot_general` contracting the one
  shared axis is the sum over that axis of the products. No law of arithmetic beyond these readings is used, so the
  arguments may be any extended reals.
-/
import proofs.«103907_j89455578841822_2_alg».proof.Proof.KernelValue
import proofs.«103907_j89455578841822_2_alg».proof.Proof.RefRun

noncomputable section

namespace Cert.Proof.Bridge

open Idealize.ShloMosaic Idealize.ShloMosaic.TcCoe Idealize.SL.Sem Cert

/-- The first layer's projection, as the reference spells it. -/
theorem proj1_eq (x0 : FVec Ideal Cert.ReferenceIdeal.S250000x1 .f32) (x2 : FVec Ideal Cert.ReferenceIdeal.S1x16 .f32) :
    RowOps.matProd x0 x2 = Host.dotGeneral Cert.ReferenceIdeal.dot_S250000x1_S1x16_S250000x16_1_0_0_1_n_n none x0 x2 :=
  (RowOps.dotGeneral_eq_matProd Cert.ReferenceIdeal.dot_S250000x1_S1x16_S250000x16_1_0_0_1_n_n rfl rfl
      (fun i q => by
        unfold DotDims.lhsIdx
        rw [dif_neg (show ¬(0 : Fin 2) ∈ Cert.ReferenceIdeal.dot_S250000x1_S1x16_S250000x16_1_0_0_1_n_n.lhsBatch by decide), dif_pos (show (0 : Fin 2) ∈ Cert.ReferenceIdeal.dot_S250000x1_S1x16_S250000x16_1_0_0_1_n_n.lhsNonContracting by decide)]
        rfl)
      (fun i q => Cert.ReferenceIdeal.dot_S250000x1_S1x16_S250000x16_1_0_0_1_n_n.lhsIdx_val_of_single rfl i q)
      (fun i q => Cert.ReferenceIdeal.dot_S250000x1_S1x16_S250000x16_1_0_0_1_n_n.rhsIdx_val_of_single rfl i q)
      (fun i q => by
        unfold DotDims.rhsIdx
        rw [dif_neg (show ¬(1 : Fin 2) ∈ Cert.ReferenceIdeal.dot_S250000x1_S1x16_S250000x16_1_0_0_1_n_n.rhsBatch by decide), dif_pos (show (1 : Fin 2) ∈ Cert.ReferenceIdeal.dot_S250000x1_S1x16_S250000x16_1_0_0_1_n_n.rhsNonContracting by decide)]
        rfl)
      none .single x0 x2).symm

/-- The second layer's projection, as the reference spells it. -/
theorem proj2_eq (h : FVec Ideal Cert.ReferenceIdeal.S250000x16 .f32) (x4 : FVec Ideal Cert.ReferenceIdeal.S16x1 .f32) :
    RowOps.matProd h x4 = Host.dotGeneral Cert.ReferenceIdeal.dot_S250000x16_S16x1_S250000x1_1_0_0_1_n_n none h x4 :=
  (RowOps.dotGeneral_eq_matProd Cert.ReferenceIdeal.dot_S250000x16_S16x1_S250000x1_1_0_0_1_n_n rfl rfl
      (fun i q => by
        unfold DotDims.lhsIdx
        rw [dif_neg (show ¬(0 : Fin 2) ∈ Cert.ReferenceIdeal.dot_S250000x16_S16x1_S250000x1_1_0_0_1_n_n.lhsBatch by decide), dif_pos (show (0 : Fin 2) ∈ Cert.ReferenceIdeal.dot_S250000x16_S16x1_S250000x1_1_0_0_1_n_n.lhsNonContracting by decide)]
        rfl)
      (fun i q => Cert.ReferenceIdeal.dot_S250000x16_S16x1_S250000x1_1_0_0_1_n_n.lhsIdx_val_of_single rfl i q)
      (fun i q => Cert.ReferenceIdeal.dot_S250000x16_S16x1_S250000x1_1_0_0_1_n_n.rhsIdx_val_of_single rfl i q)
      (fun i q => by
        unfold DotDims.rhsIdx
        rw [dif_neg (show ¬(1 : Fin 2) ∈ Cert.ReferenceIdeal.dot_S250000x16_S16x1_S250000x1_1_0_0_1_n_n.rhsBatch by decide), dif_pos (show (1 : Fin 2) ∈ Cert.ReferenceIdeal.dot_S250000x16_S16x1_S250000x1_1_0_0_1_n_n.rhsNonContracting by decide)]
        rfl)
      none .single h x4).symm

/-- The edge coefficients as a column: the kernel casts the vector, the reference broadcasts it along a new unit axis. -/
theorem normCol_eq (v : FVec Ideal Cert.ReferenceIdeal.S5250000 .f32) :
    shapeCast Cert.KernelIdeal.S5250000x1 v Cert.KernelIdeal.Facts₀.shapeCasts_S5250000_S5250000x1
      = broadcastInDim Cert.ReferenceIdeal.S5250000x1 ![0] Cert.ReferenceIdeal.Facts₀.bcast_S5250000_S5250000x1_0 v :=
  RowOps.colCast_eq_bcast _ _ v

/-- The first layer's scaling, as the reference spells it. -/
theorem scale16_eq (g : FVec Ideal Cert.ReferenceIdeal.S5250000x16 .f32) (n : FVec Ideal Cert.ReferenceIdeal.S5250000x1 .f32) :
    RowOps.scaleRows g n = mulf g (broadcastInDim Cert.ReferenceIdeal.S5250000x16 ![0, 1] Cert.ReferenceIdeal.Facts₀.bcast_S5250000x1_S5250000x16_0_1 n) :=
  (RowOps.mulf_bcastCol _ g n).symm

/-- The first layer's bias and cut-off, as the reference spells them. -/
theorem biasRelu_eq (a : FVec Ideal Cert.ReferenceIdeal.S250000x16 .f32) (x3 : FVec Ideal Cert.ReferenceIdeal.S16 .f32) :
    RowOps.reluRow a (shapeCast Cert.KernelIdeal.S1x16 x3 Cert.KernelIdeal.Facts₀.shapeCasts_S16_S1x16)
      = maximumf (addf a (broadcastInDim Cert.ReferenceIdeal.S250000x16 ![0, 1] Cert.ReferenceIdeal.Facts₀.bcast_S1x16_S250000x16_0_1 (broadcastInDim Cert.ReferenceIdeal.S1x16 ![1] Cert.ReferenceIdeal.Facts₀.bcast_S16_S1x16_1 x3)))
          (broadcastInDim Cert.ReferenceIdeal.S250000x16 ![] Cert.ReferenceIdeal.Facts₀.bcast_S_S250000x16 (constant Cert.ReferenceIdeal.S_ .f32 0x00000000#32)) := by
  rw [RowOps.rowCast_eq_bcast _ Cert.ReferenceIdeal.Facts₀.bcast_S16_S1x16_1, RowOps.addf_bcastRow Cert.ReferenceIdeal.Facts₀.bcast_S1x16_S250000x16_0_1]
  exact (RowOps.maximumf_bcastZero Cert.ReferenceIdeal.Facts₀.bcast_S_S250000x16 a _).symm

/-- The second layer's bias, as the reference spells it. -/
theorem bias1_eq (a : FVec Ideal Cert.ReferenceIdeal.S250000x1 .f32) (x5 : FVec Ideal Cert.ReferenceIdeal.S1 .f32) :
    RowOps.addRow a (shapeCast Cert.KernelIdeal.S1x1 x5 Cert.KernelIdeal.Facts₀.shapeCasts_S1_S1x1)
      = addf a (broadcastInDim Cert.ReferenceIdeal.S250000x1 ![0, 1] Cert.ReferenceIdeal.Facts₀.bcast_S1x1_S250000x1_0_1 (broadcastInDim Cert.ReferenceIdeal.S1x1 ![1] Cert.ReferenceIdeal.Facts₀.bcast_S1_S1x1_1 x5)) := by
  rw [RowOps.rowCast_eq_bcast _ Cert.ReferenceIdeal.Facts₀.bcast_S1_S1x1_1, RowOps.addf_bcastRow Cert.ReferenceIdeal.Facts₀.bcast_S1x1_S250000x1_0_1]

/-- The kernel's term of the arguments is the reference's. -/
theorem result_eq (m' : (ℓ : Loc Cert.ReferenceIdeal.nD Cert.ReferenceIdeal.τ Cert.ReferenceIdeal.sig) → Buf (Elt Ideal) ℓ) (c : Dev Cert.ReferenceIdeal.nD) :
    Cert.KernelIdeal.Hand.outT (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = Cert.ReferenceIdeal.ValueP.res_main_v63 m' c := by
  unfold Cert.KernelIdeal.Hand.outT Cert.KernelIdeal.Hand.msg2T Cert.KernelIdeal.Hand.hidT Cert.KernelIdeal.Hand.msg1T Cert.KernelIdeal.Hand.normT Cert.KernelIdeal.Scale1.prod
  rw [bias1_eq, proj2_eq, biasRelu_eq, scale16_eq, proj1_eq, normCol_eq]
  unfold Cert.ReferenceIdeal.ValueP.res_main_v63
  rfl

/-- The same, for any arrays the reference's arguments are equal to. -/
theorem result_eq_of (m' : (ℓ : Loc Cert.ReferenceIdeal.nD Cert.ReferenceIdeal.τ Cert.ReferenceIdeal.sig) → Buf (Elt Ideal) ℓ) (c : Dev Cert.ReferenceIdeal.nD)
    (x0 : FVec Ideal Cert.KernelIdeal.S250000x1 .f32) (x1 : IVec Cert.KernelIdeal.S2x5000000 32) (x2 : FVec Ideal Cert.KernelIdeal.S1x16 .f32)
    (x3 : FVec Ideal Cert.KernelIdeal.S16 .f32) (x4 : FVec Ideal Cert.KernelIdeal.S16x1 .f32) (x5 : FVec Ideal Cert.KernelIdeal.S1 .f32)
    (h0 : m' ((c.tc : Thread Cert.ReferenceIdeal.nD Cert.ReferenceIdeal.τ).loc Cert.ReferenceIdeal.main_arg0) = x0) (h1 : m' ((c.tc : Thread Cert.ReferenceIdeal.nD Cert.ReferenceIdeal.τ).loc Cert.ReferenceIdeal.main_arg1) = x1)
    (h2 : m' ((c.tc : Thread Cert.ReferenceIdeal.nD Cert.ReferenceIdeal.τ).loc Cert.ReferenceIdeal.main_arg2) = x2) (h3 : m' ((c.tc : Thread Cert.ReferenceIdeal.nD Cert.ReferenceIdeal.τ).loc Cert.ReferenceIdeal.main_arg3) = x3)
    (h4 : m' ((c.tc : Thread Cert.ReferenceIdeal.nD Cert.ReferenceIdeal.τ).loc Cert.ReferenceIdeal.main_arg4) = x4) (h5 : m' ((c.tc : Thread Cert.ReferenceIdeal.nD Cert.ReferenceIdeal.τ).loc Cert.ReferenceIdeal.main_arg5) = x5) :
    Cert.KernelIdeal.Hand.outT x0 x1 x2 x3 x4 x5 = Cert.ReferenceIdeal.ValueP.res_main_v63 m' c := by
  subst h0 h1 h2 h3 h4 h5
  exact result_eq m' c

end Cert.Proof.Bridge

end
-- ==== Proof.lean ====
/-
  The certificate of a two-layer graph convolution: a kernel of six device regions (two dense projections, two
  row scalings, two bias additions, the first with a cut-off at zero) among host gathers and scatter-adds, against the
  same network written with host operations only.

  The three frames: the two kernel programs by their generated frame proofs; the reference by its run (Proof/RefRun.lean)
  with the result dropped. The idealization rewrote nothing, so `preserves` is trivial. The value claim: the idealized
  kernel ends with its result buffer at the last segment boundary's contents (Proof/KernelRun.lean), which is the term
  `outT` of the arguments (Proof/KernelValue.lean, over the six region modules); the reference ends at its composed
  term of the arguments; the two terms are one function on the extended reals (Proof/Bridge.lean): the same host
  operations around three dense steps per layer that agree entry by entry. No arithmetic law is used that could fail
  at an infinity, so the precondition is not opened.
-/
import proofs.«103907_j89455578841822_2_alg».proof.Defs
import proofs.«103907_j89455578841822_2_alg».proof.Proof.Gen.Kernel
import proofs.«103907_j89455578841822_2_alg».proof.Proof.Gen.Kernel.Skeleton
import proofs.«103907_j89455578841822_2_alg».proof.Proof.Gen.Kernel.Launch
import proofs.«103907_j89455578841822_2_alg».proof.Proof.Gen.Kernel.Points
import proofs.«103907_j89455578841822_2_alg».proof.Proof.Gen.Kernel.Frame
import proofs.«103907_j89455578841822_2_alg».proof.Proof.Gen.KernelIdeal
import proofs.«103907_j89455578841822_2_alg».proof.Proof.Gen.KernelIdeal.Skeleton
import proofs.«103907_j89455578841822_2_alg».proof.Proof.Gen.KernelIdeal.Launch
import proofs.«103907_j89455578841822_2_alg».proof.Proof.Gen.KernelIdeal.Points
import proofs.«103907_j89455578841822_2_alg».proof.Proof.Gen.KernelIdeal.Frame
import proofs.«103907_j89455578841822_2_alg».proof.Proof.Gen.ReferenceIdeal
import proofs.«103907_j89455578841822_2_alg».proof.Proof.Gen.Pre_finite_inputs
import proofs.«103907_j89455578841822_2_alg».proof.Proof.RefRun
import proofs.«103907_j89455578841822_2_alg».proof.Proof.KernelRun
import proofs.«103907_j89455578841822_2_alg».proof.Proof.KernelValue
import proofs.«103907_j89455578841822_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the result at `outT` of the arguments: the
    kernel by its run and the reading of its last boundary, the reference by its run and the equality of the two terms. -/
theorem algebraic : Cert.algebraic_KernelIdeal_ReferenceIdeal := by
  intro m ρ m' ρ' _ hagree
  refine ⟨fun c => Cert.KernelIdeal.Hand.outT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Hand.out_at13 m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    exact (Cert.Proof.Bridge.result_eq_of m' c _ _ _ _ _ _ h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
